-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x32 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S5000x64 : Shape := ⟨2, ![5000, 64]⟩
abbrev S100000x1 : Shape := ⟨2, ![100000, 1]⟩
abbrev S1600000x64 : Shape := ⟨2, ![1600000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 140
  | .vmem => 38
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S1600000, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x32, .f32⟩
  | 15 => ⟨S32, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S1x64, .f32⟩
  | 41 => ⟨S100000x64, .f32⟩
  | 42 => ⟨S100000x1, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x1, .f32⟩
  | 62 => ⟨S100000x64, .f32⟩
  | 63 => ⟨S100000x64, .f32⟩
  | 64 => ⟨S1x64, .f32⟩
  | 65 => ⟨S100000x64, .f32⟩
  | 66 => ⟨S100000x1, .f32⟩
  | 67 => ⟨S100000x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1600000x1, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S100000x1, .f32⟩
  | 86 => ⟨S100000x64, .f32⟩
  | 87 => ⟨S100000x64, .f32⟩
  | 88 => ⟨S1x64, .f32⟩
  | 89 => ⟨S100000x64, .f32⟩
  | 90 => ⟨S100000x1, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000x1, .f32⟩
  | 110 => ⟨S100000x64, .f32⟩
  | 111 => ⟨S100000x64, .f32⟩
  | 112 => ⟨S1x64, .f32⟩
  | 113 => ⟨S100000x64, .f32⟩
  | 114 => ⟨S100000x1, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x64, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S100000x1, .f32⟩
  | 6 => ⟨S100000x64, .f32⟩
  | 7 => ⟨S100000x64, .f32⟩
  | 8 => ⟨S1x64, .f32⟩
  | 9 => ⟨S100000x64, .f32⟩
  | 10 => ⟨S1x32, .f32⟩
  | 11 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x32, .f32⟩
  | .local _ .vmem, ⟨35, _⟩ => ⟨S1x32, .f32⟩
  | .local _ .vmem, ⟨36, _⟩ => ⟨S5000x32, .f32⟩
  | .local _ .vmem, ⟨37, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_cst_4 : Ref sig .tc := ⟨.hbm, 34, rfl⟩
abbrev main_v9 : Ref sig .tc := ⟨.hbm, 35, rfl⟩
abbrev main_v10 : Ref sig .tc := ⟨.hbm, 36, rfl⟩
abbrev main_cst_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_14 : Ref sig .tc := ⟨.hbm, 117, rfl⟩
abbrev main_v81 : Ref sig .tc := ⟨.hbm, 118, rfl⟩
abbrev main_v82 : Ref sig .tc := ⟨.hbm, 119, rfl⟩
abbrev main_c_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_16 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem4_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x32.size a ≤ S64x32.size a
  hwx5_2 : ∀ i : grid5.Coords, EltTy.bits .f32 = 32 ∨ (Rect.block (s := S64x32) S64x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v96) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v98) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S64x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x1 : Shape := ⟨2, ![100000, 1]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S1600000, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x32, .f32⟩
  | 15 => ⟨S32, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S100000x64, .f32⟩
  | 41 => ⟨S1x64, .f32⟩
  | 42 => ⟨S100000x64, .f32⟩
  | 43 => ⟨S100000x64, .f32⟩
  | 44 => ⟨S100000x1, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x1, .f32⟩
  | 74 => ⟨S100000x64, .f32⟩
  | 75 => ⟨S100000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S1600000x1, .f32⟩
  | 86 => ⟨S1600000x64, .f32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S100000x1, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x1, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x1, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S100000x1, .f32⟩
  | 4 => ⟨S100000x64, .f32⟩
  | 5 => ⟨S100000x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x1, .f32⟩
  | 16 => ⟨S1600000x64, .f32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S100000x1, .f32⟩
  | 23 => ⟨S100000x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x32, .f32⟩
  | 34 => ⟨S1x32, .f32⟩
  | 35 => ⟨S100000x32, .f32⟩
  | 36 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_cst_4 : Ref sig .tc := ⟨.hbm, 34, rfl⟩
abbrev main_v9 : Ref sig .tc := ⟨.hbm, 35, rfl⟩
abbrev main_v10 : Ref sig .tc := ⟨.hbm, 36, rfl⟩
abbrev main_cst_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_6 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call2_cst : Ref sig .tc := ⟨.hbm, 70, rfl⟩
abbrev main_call2_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_8 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call3_cst : Ref sig .tc := ⟨.hbm, 99, rfl⟩
abbrev main_call3_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_11 : Ref sig .tc := ⟨.hbm, 105, rfl⟩
abbrev main_v68 : Ref sig .tc := ⟨.hbm, 106, rfl⟩
abbrev main_v69 : Ref sig .tc := ⟨.hbm, 107, rfl⟩
abbrev main_c_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call4_cst : Ref sig .tc := ⟨.hbm, 128, rfl⟩
abbrev main_call4_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_14 : Ref sig .tc := ⟨.hbm, 134, rfl⟩
abbrev main_v92 : Ref sig .tc := ⟨.hbm, 135, rfl⟩
abbrev main_v93 : Ref sig .tc := ⟨.hbm, 136, rfl⟩
abbrev main_c_15 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_16 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call5_cst : Ref sig .tc := ⟨.hbm, 158, rfl⟩
abbrev main_call5_v0 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its result NAMED.

  The program is sixteen segments in a row: stretches of host operations and the six dense layers. The buffer
  contents at each segment boundary are a fold from the launch memory (`W0 … W16`); every weakly fair execution
  terminates, nothing faulting, with every buffer at the last boundary's contents. The frame theorem keeps of that
  only "the arguments end as launched"; here the result table is kept too, at `W16` — whose value the other modules
  compute.
-/
import proofs.«179798_j45311904973178_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's run theorem for a program of several regions finds its implicit arguments by unifying its
-- conclusion with this one, which takes unfolding plain definitions in a metavariable's type
set_option backward.isDefEq.respectTransparency.types false in
/-- Every weakly fair execution of @main terminates, nothing faulting, with the result table at the last boundary's
    contents and the sixteen argument arrays as launched. -/
theorem run_named : θ_run defs (onTc (τ := τ) (main (F := F))) ⟨m, fun _ => 0, ρ⟩ (fun r => ∀ c : Dev nD,
      r.2.mem ((c.tc : Thread nD τ).loc main_v100) = W16 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v100 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c)⟩)

end Cert.KernelIdeal.RunValue

end
-- ==== Proof.DenseSpec.lean ====
/-
  The dense layers of the network as whole-array functions on the extended reals, index by index.

  A dense layer sends a table `x` of N rows and 64 columns, a 64 × C weight matrix `w` and a bias row `b`
  (kept as a 1 × C array, the form in which both programs hold it) to the N × C table whose entry (r, c) is
  `(∑ k, x (r, k) · w (k, c)) + b (0, c)`. `relu` clamps every entry below at zero. The last layer first adds the
  residual table, clamps, and then applies a dense layer.

  Sums on the extended reals are commutative and associative, so the order in which a program accumulates the
  64 products does not matter; no distributivity is used anywhere, hence no finiteness of the inputs.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- Entry (r, c) of `x · w + b`: the 64 products of row r of `x` with column c of `w`, summed, plus the bias of column c. -/
def affine {N C : Nat} (x : (⟨2, ![N, 64]⟩ : Shape).Idx → EReal) (w : (⟨2, ![64, C]⟩ : Shape).Idx → EReal)
    (b : (⟨2, ![1, C]⟩ : Shape).Idx → EReal) : (⟨2, ![N, C]⟩ : Shape).Idx → EReal :=
  fun i => (∑ k : Fin 64, x (ix2 (i 0) k) * w (ix2 k (i 1))) + b (ix2 (0 : Fin 1) (i 1))

/-- Every entry clamped below at zero (the zero is the f32 word of +0). -/
def relu {s : Shape} (v : s.Idx → EReal) : s.Idx → EReal :=
  fun i => max (v i) (Ideal.ofBits .f32 0x00000000#32)

/-- The last layer: the residual added entry by entry, the sum clamped at zero, then a dense layer. -/
def affineOfSum {N C : Nat} (h r : (⟨2, ![N, 64]⟩ : Shape).Idx → EReal) (w : (⟨2, ![64, C]⟩ : Shape).Idx → EReal)
    (b : (⟨2, ![1, C]⟩ : Shape).Idx → EReal) : (⟨2, ![N, C]⟩ : Shape).Idx → EReal :=
  affine (relu fun i => h i + r i) w b

theorem affine_apply {N C : Nat} (x : (⟨2, ![N, 64]⟩ : Shape).Idx → EReal) (w : (⟨2, ![64, C]⟩ : Shape).Idx → EReal)
    (b : (⟨2, ![1, C]⟩ : Shape).Idx → EReal) (r : Fin N) (c : Fin C) :
    affine x w b (ix2 r c) = (∑ k : Fin 64, x (ix2 r k) * w (ix2 k c)) + b (ix2 (0 : Fin 1) c) := rfl

end Cert.Spec

end
-- ==== Proof.Chain.lean ====
/-
  The host stages both programs share, each as ONE function of the arrays it reads, and the whole network over them.

  `nrm idx`: for every node, (max 1 (number of edges whose endpoint `idx` is that node)) ^ (-1/2) — the count is
  a scatter-add of ones, the clamp a maximum with 1, the power the host's `pow` with exponent -1/2.
  `prep h src dst ew ns nd`: scale row u of `h` by `ns u`; for every edge e take the scaled row of its source node
  (a negative source index is first shifted by the number of nodes), times the edge weight; add the edge rows into
  the row of their destination node; scale row v of the result by `nd v`.
  `net`: the residual branch x · Wr + br; four rounds of `prep` followed by a dense layer, the first three clamped
  at zero; the residual added, clamped, and the last dense layer.
  Neither stage is ever opened: both programs apply the same operations to equal arrays.
-/
import proofs.«179798_j45311904973178_1_alg».proof.Proof.Gen.KernelIdeal
import proofs.«179798_j45311904973178_1_alg».proof.Proof.DenseSpec
import Idealize.ShloMosaic.PureOps.Ideal

noncomputable section

namespace Cert.KernelIdeal.Chain

open Cert.KernelIdeal Cert.KernelIdeal.Gen Idealize.ShloMosaic Idealize.ShloMosaic.TcCoe

abbrev Tab := FVec Ideal S100000x64 .f32
abbrev NodeVec := FVec Ideal S100000 .f32
abbrev EdgeIdx := IVec S1600000 32
abbrev EdgeVec := FVec Ideal S1600000 .f32
abbrev Mat64 := FVec Ideal S64x64 .f32
abbrev Mat32 := FVec Ideal S64x32 .f32
abbrev Row64 := FVec Ideal S1x64 .f32
abbrev Row32 := FVec Ideal S1x32 .f32
abbrev Out := FVec Ideal S100000x32 .f32
/-- A bias vector. -/
abbrev Vec64 := FVec Ideal S64 .f32
abbrev Vec32 := FVec Ideal S32 .f32

/-- Per node: (max 1 (number of edges with that endpoint)) ^ (-1/2). -/
def nrm (idx : EdgeIdx) : NodeVec :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- One round of message passing before its dense layer (see the header). -/
def prep (h : Tab) (src dst : EdgeIdx) (ew : EdgeVec) (ns nd : NodeVec) : Tab :=
  mulf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (mulf
        (Host.gather gather_S100000x64_S1600000x1_S1600000x64_1_0_n_n_0_1_164
          (mulf h (broadcastInDim S100000x64 ![0, 1] bcast_S100000x1_S100000x64_0_1 (broadcastInDim S100000x1 ![0] bcast_S100000_S100000x1_0 ns)))
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x64 ![0, 1] bcast_S1600000x1_S1600000x64_0_1 (broadcastInDim S1600000x1 ![0] bcast_S1600000_S1600000x1_0 ew))))
    (broadcastInDim S100000x64 ![0, 1] bcast_S100000x1_S100000x64_0_1 (broadcastInDim S100000x1 ![0] bcast_S100000_S100000x1_0 nd))

/-- A bias vector as the 1 × 64 row the kernel's host side holds it as: the same 64 numbers, cast to one row. -/
def rowOf64 (b : Vec64) : Row64 := fun i => shapeCast S1x64 b shapeCasts_S64_S1x64 i
/-- The same for the last layer's 32 biases. -/
def rowOf32 (b : Vec32) : Row32 := fun i => shapeCast S1x32 b shapeCasts_S32_S1x32 i

/-- One hidden layer without its clamp: message passing, then the dense layer. -/
def layer (h : Tab) (src dst : EdgeIdx) (ew : EdgeVec) (w : Mat64) (b : Row64) : Tab :=
  Spec.affine (prep h src dst ew (nrm src) (nrm dst)) w b

/-- The whole network: each bias is taken as the 1 × C row both programs hold it as. -/
def net (x : Tab) (src dst : EdgeIdx) (ew : EdgeVec) (w1 : Mat64) (b1 : Row64) (w2 : Mat64) (b2 : Row64) (w3 : Mat64) (b3 : Row64)
    (w4 : Mat64) (b4 : Row64) (wr : Mat64) (br : Row64) (wo : Mat32) (bo : Row32) : Out :=
  Spec.affineOfSum
    (layer (Spec.relu (layer (Spec.relu (layer (Spec.relu (layer x src dst ew w1 b1)) src dst ew w2 b2)) src dst ew w3 b3)) src dst ew w4 b4)
    (Spec.affine x wr br) wo bo

end Cert.KernelIdeal.Chain

end
-- ==== Proof.FoldNames.lean ====
/-
  Names for the fold through the program's boundaries: the sixteen argument arrays and the two norm vectors (the
  buffers nothing overwrites), the arguments' launch contents typed as the arrays they are, and the one argument used
  for every host stretch: a buffer that no operation of the stretch writes keeps its contents.
-/
import proofs.«179798_j45311904973178_1_alg».proof.Proof.Gen.KernelIdeal.Frame
import proofs.«179798_j45311904973178_1_alg».proof.Proof.Chain

import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

/-- A buffer that no operation of a host stretch writes keeps its contents over the stretch: each operation's
    written buffer is compared with it by name. -/
macro "host_keep" : tactic => `(tactic|
  exact StableHlo.after_of_forall_not_mem _ _ (List.forall_iff_forall_mem.mp (by
    simp only [hostOps0, hostOps0_1, hostOps0_2, hostOps0_3, hostOps0_4, hostOps1, hostOps2, hostOps3, hostOps4, hostOps5,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-- The sixteen argument arrays. -/
def args : List (Ref sig .tc) := [main_arg0, main_arg1, main_arg2, main_arg3, main_arg4, main_arg5, main_arg6, main_arg7, main_arg8, main_arg9, main_arg10, main_arg11, main_arg12, main_arg13, main_arg14, main_arg15]
/-- They and the two norm vectors. -/
def live : List (Ref sig .tc) := main_v10 :: main_v12 :: args

/-! ## The arguments as launched, typed as the arrays they are -/

abbrev X : Chain.Tab := m ((c : Thread nD τ).loc main_arg0)
abbrev SRC : Chain.EdgeIdx := m ((c : Thread nD τ).loc main_arg1)
abbrev DST : Chain.EdgeIdx := m ((c : Thread nD τ).loc main_arg2)
abbrev EW : Chain.EdgeVec := m ((c : Thread nD τ).loc main_arg3)
abbrev Wt1 : Chain.Mat64 := m ((c : Thread nD τ).loc main_arg4)
abbrev B1 : Chain.Vec64 := m ((c : Thread nD τ).loc main_arg5)
abbrev Wt2 : Chain.Mat64 := m ((c : Thread nD τ).loc main_arg6)
abbrev B2 : Chain.Vec64 := m ((c : Thread nD τ).loc main_arg7)
abbrev Wt3 : Chain.Mat64 := m ((c : Thread nD τ).loc main_arg8)
abbrev B3 : Chain.Vec64 := m ((c : Thread nD τ).loc main_arg9)
abbrev Wt4 : Chain.Mat64 := m ((c : Thread nD τ).loc main_arg10)
abbrev B4 : Chain.Vec64 := m ((c : Thread nD τ).loc main_arg11)
abbrev WR : Chain.Mat64 := m ((c : Thread nD τ).loc main_arg12)
abbrev BR : Chain.Vec64 := m ((c : Thread nD τ).loc main_arg13)
abbrev WO : Chain.Mat32 := m ((c : Thread nD τ).loc main_arg14)
abbrev BO : Chain.Vec32 := m ((c : Thread nD τ).loc main_arg15)

end Cert.KernelIdeal.Fold

end
-- ==== Proof.FoldArgs.lean ====
/-
  The opening host operations (the degree counts, the clamps, the powers, one reshape) write no argument array: at
  boundary 5 every argument still holds its launch contents.
-/
import proofs.«179798_j45311904973178_1_alg».proof.Proof.Gen.KernelIdeal.Frame
import proofs.«179798_j45311904973178_1_alg».proof.Proof.Chain
import proofs.«179798_j45311904973178_1_alg».proof.Proof.FoldNames
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)
theorem step1 (b : Ref sig .tc) (hb : b ∈ args) : Gen.W1 m ρ c (Proc.devRef .tc b) = Gen.W0 m ρ c (Proc.devRef .tc b) := by
  simp only [args, List.mem_cons, List.mem_nil_iff, or_false] at hb
  rcases hb with rfl | rfl | rfl | rfl | rfl | rfl | rfl | rfl | rfl | rfl | rfl | rfl | rfl | rfl | rfl | rfl
  all_goals host_keep

theorem step2 (b : Ref sig .tc) (hb : b ∈ args) : Gen.W2 m ρ c (Proc.devRef .tc b) = Gen.W1 m ρ c (Proc.devRef .tc b) := by
  simp only [args, List.mem_cons, List.mem_nil_iff, or_false] at hb
  rcases hb with rfl | rfl | rfl | rfl | rfl | rfl | rfl | rfl | rfl | rfl | rfl | rfl | rfl | rfl | rfl | rfl
  all_goals host_keep

theorem step3 (b : Ref sig .tc) (hb : b ∈ args) : Gen.W3 m ρ c (Proc.devRef .tc b) = Gen.W2 m ρ c (Proc.devRef .tc b) := by
  simp only [args, List.mem_cons, List.mem_nil_iff, or_false] at hb
  rcases hb with rfl | rfl | rfl | rfl | rfl | rfl | rfl | rfl | rfl | rfl | rfl | rfl | rfl | rfl | rfl | rfl
  all_goals host_keep

theorem step4 (b : Ref sig .tc) (hb : b ∈ args) : Gen.W4 m ρ c (Proc.devRef .tc b) = Gen.W3 m ρ c (Proc.devRef .tc b) := by
  simp only [args, List.mem_cons, List.mem_nil_iff, or_false] at hb
  rcases hb with rfl | rfl | rfl | rfl | rfl | rfl | rfl | rfl | rfl | rfl | rfl | rfl | rfl | rfl | rfl | rfl
  all_goals host_keep

theorem step5 (b : Ref sig .tc) (hb : b ∈ args) : Gen.W5 m ρ c (Proc.devRef .tc b) = Gen.W4 m ρ c (Proc.devRef .tc b) := by
  simp only [args, List.mem_cons, List.mem_nil_iff, or_false] at hb
  rcases hb with rfl | rfl | rfl | rfl | rfl | rfl | rfl | rfl | rfl | rfl | rfl | rfl | rfl | rfl | rfl | rfl
  all_goals host_keep

/-- At boundary 5 every argument holds its launch contents. -/
theorem arg5 (b : Ref sig .tc) (hb : b ∈ args) : Gen.W5 m ρ c (Proc.devRef .tc b) = m ((c : Thread nD τ).loc b) :=
  (step5 m ρ c b hb).trans ((step4 m ρ c b hb).trans ((step3 m ρ c b hb).trans ((step2 m ρ c b hb).trans ((step1 m ρ c b hb).trans rfl))))

end Cert.KernelIdeal.Fold

end
-- ==== Proof.FoldNorm.lean ====
/-
  What the opening host operations compute: the two norm vectors, `Chain.nrm` of the source and of the destination
  endpoint arrays (a scatter-add of ones, a maximum with 1, a power -1/2), and the residual branch's bias as a row.

  Each stretch is read once, for ANY contents `V` of the buffers before it (so nothing about earlier stretches is
  ever unfolded), and the readings are then chained from the launch memory, the buffers in between carried over the
  stretches that do not write them.
-/
import proofs.«179798_j45311904973178_1_alg».proof.Proof.Gen.KernelIdeal.Frame
import proofs.«179798_j45311904973178_1_alg».proof.Proof.Chain
import proofs.«179798_j45311904973178_1_alg».proof.Proof.FoldNames
import proofs.«179798_j45311904973178_1_alg».proof.Proof.FoldArgs
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

/-! ## Each stretch, read for any contents before it -/

section Reads
variable (V : Valuation τ sig (Elt Ideal))

/-- The table of ones the counts add up. -/
theorem ones_read : StableHlo.after hostOps0 V (Proc.devRef .tc main_v0)
    = broadcastInDim S1600000 ![] bcast_S_S1600000 (constant (F := Ideal) S_ .f32 0x3F800000#32) := by
  after_results <;> rfl

/-- The count of edges per source node. -/
theorem cntS_read : StableHlo.after hostOps0 V (Proc.devRef .tc main_v3)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg1) : Chain.EdgeIdx))
        (broadcastInDim S1600000 ![] bcast_S_S1600000 (constant (F := Ideal) S_ .f32 0x3F800000#32)) := by
  after_results <;> rfl

theorem oneS_read : StableHlo.after hostOps0 V (Proc.devRef .tc main_cst_1) = constant (F := Ideal) S_ .f32 0x3F800000#32 := by
  after_results <;> rfl

/-- The clamp of the source counts at 1. -/
theorem clipS_read : StableHlo.after hostOps0_1 V (Proc.devRef .tc main_v4)
    = maximumf (F := Ideal) (φ := .f32) (broadcastInDim S100000 ![] bcast_S_S100000 (id (α := FVec Ideal S_ .f32) (V (Proc.devRef .tc main_cst_1))))
        (V (Proc.devRef .tc main_v3) : Chain.NodeVec) := by
  after_results <;> rfl

/-- The count of edges per destination node (the ones are the first stretch's). -/
theorem cntD_read : StableHlo.after hostOps0_2 V (Proc.devRef .tc main_v7)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (V (Proc.devRef .tc main_arg2) : Chain.EdgeIdx))
        (V (Proc.devRef .tc main_v0) : Chain.EdgeVec) := by
  after_results <;> rfl

theorem oneD_read : StableHlo.after hostOps0_2 V (Proc.devRef .tc main_cst_3) = constant (F := Ideal) S_ .f32 0x3F800000#32 := by
  after_results <;> rfl

/-- The clamp of the destination counts at 1. -/
theorem clipD_read : StableHlo.after hostOps0_3 V (Proc.devRef .tc main_v8)
    = maximumf (F := Ideal) (φ := .f32) (broadcastInDim S100000 ![] bcast_S_S100000 (id (α := FVec Ideal S_ .f32) (V (Proc.devRef .tc main_cst_3))))
        (V (Proc.devRef .tc main_v7) : Chain.NodeVec) := by
  after_results <;> rfl

/-- The powers -1/2 and the reshape of the residual bias. -/
theorem powS_read : StableHlo.after hostOps0_4 V (Proc.devRef .tc main_v10)
    = Host.powf (F := Ideal) (V (Proc.devRef .tc main_v4) : Chain.NodeVec) (broadcastInDim S100000 ![] bcast_S_S100000 (constant (F := Ideal) S_ .f32 0xBF000000#32)) := by
  after_results <;> rfl
theorem powD_read : StableHlo.after hostOps0_4 V (Proc.devRef .tc main_v12)
    = Host.powf (F := Ideal) (V (Proc.devRef .tc main_v8) : Chain.NodeVec) (broadcastInDim S100000 ![] bcast_S_S100000 (constant (F := Ideal) S_ .f32 0xBF000000#32)) := by
  after_results <;> rfl
theorem rowR_read : StableHlo.after hostOps0_4 V (Proc.devRef .tc main_v13) = Chain.rowOf64 (V (Proc.devRef .tc main_arg13) : Chain.Vec64) := by
  after_results <;> rfl

end Reads

variable (m : (ℓ : Loc nD τ sig) → Buf (Elt Ideal) ℓ) (ρ : Dev nD → PrngReg) (c : Dev nD)

/-! ## Chained from the launch memory -/

theorem v3_1 : Gen.W1 m ρ c (Proc.devRef .tc main_v3)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (SRC m c))
        (broadcastInDim S1600000 ![] bcast_S_S1600000 (constant (F := Ideal) S_ .f32 0x3F800000#32)) :=
  cntS_read (Gen.W0 m ρ c)

theorem v4_2 : Gen.W2 m ρ c (Proc.devRef .tc main_v4)
    = maximumf (F := Ideal) (broadcastInDim S100000 ![] bcast_S_S100000 (id (constant (F := Ideal) S_ .f32 0x3F800000#32)))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (SRC m c))
          (broadcastInDim S1600000 ![] bcast_S_S1600000 (constant (F := Ideal) S_ .f32 0x3F800000#32))) := by
  refine (clipS_read (Gen.W1 m ρ c)).trans ?_
  rw [show Gen.W1 m ρ c (Proc.devRef .tc main_cst_1) = constant (F := Ideal) S_ .f32 0x3F800000#32 from oneS_read (Gen.W0 m ρ c), v3_1 m ρ c]

theorem v4_3 : Gen.W3 m ρ c (Proc.devRef .tc main_v4) = Gen.W2 m ρ c (Proc.devRef .tc main_v4) := by host_keep
theorem v4_4 : Gen.W4 m ρ c (Proc.devRef .tc main_v4) = Gen.W3 m ρ c (Proc.devRef .tc main_v4) := by host_keep

/-- The norm vector of the source endpoints, as the opening host operations compute it. -/
theorem ns5 : Gen.W5 m ρ c (Proc.devRef .tc main_v10) = Chain.nrm (SRC m c) := by
  refine (powS_read (Gen.W4 m ρ c)).trans ?_
  rw [v4_4 m ρ c, v4_3 m ρ c, v4_2 m ρ c]
  rfl

theorem v0_2 : Gen.W2 m ρ c (Proc.devRef .tc main_v0) = Gen.W1 m ρ c (Proc.devRef .tc main_v0) := by host_keep

theorem v7_3 : Gen.W3 m ρ c (Proc.devRef .tc main_v7)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (DST m c))
        (broadcastInDim S1600000 ![] bcast_S_S1600000 (constant (F := Ideal) S_ .f32 0x3F800000#32)) := by
  refine (cntD_read (Gen.W2 m ρ c)).trans ?_
  rw [v0_2 m ρ c, show Gen.W1 m ρ c (Proc.devRef .tc main_v0) = _ from ones_read (Gen.W0 m ρ c),
    (step2 m ρ c main_arg2 (by simp [args])).trans ((step1 m ρ c main_arg2 (by simp [args])).trans rfl)]

theorem v8_4 : Gen.W4 m ρ c (Proc.devRef .tc main_v8)
    = maximumf (F := Ideal) (broadcastInDim S100000 ![] bcast_S_S100000 (id (constant (F := Ideal) S_ .f32 0x3F800000#32)))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (DST m c))
          (broadcastInDim S1600000 ![] bcast_S_S1600000 (constant (F := Ideal) S_ .f32 0x3F800000#32))) := by
  refine (clipD_read (Gen.W3 m ρ c)).trans ?_
  rw [show Gen.W3 m ρ c (Proc.devRef .tc main_cst_3) = constant (F := Ideal) S_ .f32 0x3F800000#32 from oneD_read (Gen.W2 m ρ c), v7_3 m ρ c]

/-- The norm vector of the destination endpoints. -/
theorem nd5 : Gen.W5 m ρ c (Proc.devRef .tc main_v12) = Chain.nrm (DST m c) := by
  refine (powD_read (Gen.W4 m ρ c)).trans ?_
  rw [v8_4 m ρ c]
  rfl

/-- The residual branch's bias as a row. -/
theorem rowR5 : Gen.W5 m ρ c (Proc.devRef .tc main_v13) = Chain.rowOf64 (BR m c) := by
  refine (rowR_read (Gen.W4 m ρ c)).trans ?_
  rw [(step4 m ρ c main_arg13 (by simp [args])).trans ((step3 m ρ c main_arg13 (by simp [args])).trans
    ((step2 m ρ c main_arg13 (by simp [args])).trans ((step1 m ρ c main_arg13 (by simp [args])).trans rfl)))]

end Cert.KernelIdeal.Fold

end
-- ==== Proof.FoldSteps.lean ====
/-
  From boundary 5 on, one step per boundary: neither a host stretch nor a dense layer changes any of the eighteen
  buffers. A host stretch writes only its own results; a layer writes only its output table, and an argument it
  reads through an input window is never written back.
-/
import proofs.«179798_j45311904973178_1_alg».proof.Proof.Gen.KernelIdeal.Frame
import proofs.«179798_j45311904973178_1_alg».proof.Proof.Chain
import proofs.«179798_j45311904973178_1_alg».proof.Proof.FoldNames
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

theorem step6 (b : Ref sig .tc) (hb : b ∈ live) : Gen.W6 m ρ c (Proc.devRef .tc b) = Gen.W5 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  · exact W6_of_ne m ρ c _ (by decide)
  · exact W6_of_ne m ρ c _ (by decide)
  · exact (W6_arr m ρ c 0).trans (((dat0 (V5 m ρ) c).arrAt_in 0 rfl _).trans (A_eq0 (V5 m ρ) c 0))
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact (W6_arr m ρ c 1).trans (((dat0 (V5 m ρ) c).arrAt_in 1 rfl _).trans (A_eq0 (V5 m ρ) c 1))
  · exact W6_of_ne m ρ c _ (by decide)
  · exact W6_of_ne m ρ c _ (by decide)
  · exact W6_of_ne m ρ c _ (by decide)

theorem step7 (b : Ref sig .tc) (hb : b ∈ live) : Gen.W7 m ρ c (Proc.devRef .tc b) = Gen.W6 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  all_goals host_keep

theorem step8 (b : Ref sig .tc) (hb : b ∈ live) : Gen.W8 m ρ c (Proc.devRef .tc b) = Gen.W7 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact (W8_arr m ρ c 1).trans (((dat1 (V7 m ρ) c).arrAt_in 1 rfl _).trans (A_eq1 (V7 m ρ) c 1))
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)
  · exact W8_of_ne m ρ c _ (by decide)

theorem step9 (b : Ref sig .tc) (hb : b ∈ live) : Gen.W9 m ρ c (Proc.devRef .tc b) = Gen.W8 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  all_goals host_keep

theorem step10 (b : Ref sig .tc) (hb : b ∈ live) : Gen.W10 m ρ c (Proc.devRef .tc b) = Gen.W9 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact (W10_arr m ρ c 1).trans (((dat2 (V9 m ρ) c).arrAt_in 1 rfl _).trans (A_eq2 (V9 m ρ) c 1))
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)
  · exact W10_of_ne m ρ c _ (by decide)

theorem step11 (b : Ref sig .tc) (hb : b ∈ live) : Gen.W11 m ρ c (Proc.devRef .tc b) = Gen.W10 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  all_goals host_keep

theorem step12 (b : Ref sig .tc) (hb : b ∈ live) : Gen.W12 m ρ c (Proc.devRef .tc b) = Gen.W11 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact (W12_arr m ρ c 1).trans (((dat3 (V11 m ρ) c).arrAt_in 1 rfl _).trans (A_eq3 (V11 m ρ) c 1))
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)

theorem step13 (b : Ref sig .tc) (hb : b ∈ live) : Gen.W13 m ρ c (Proc.devRef .tc b) = Gen.W12 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  all_goals host_keep

theorem step14 (b : Ref sig .tc) (hb : b ∈ live) : Gen.W14 m ρ c (Proc.devRef .tc b) = Gen.W13 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact W14_of_ne m ρ c _ (by decide)
  · exact (W14_arr m ρ c 1).trans (((dat4 (V13 m ρ) c).arrAt_in 1 rfl _).trans (A_eq4 (V13 m ρ) c 1))
  · exact W14_of_ne m ρ c _ (by decide)
  · exact W14_of_ne m ρ c _ (by decide)
  · exact W14_of_ne m ρ c _ (by decide)
  · exact W14_of_ne m ρ c _ (by decide)
  · exact W14_of_ne m ρ c _ (by decide)

theorem step15 (b : Ref sig .tc) (hb : b ∈ live) : Gen.W15 m ρ c (Proc.devRef .tc b) = Gen.W14 m ρ c (Proc.devRef .tc b) := by
  simp only [live, args, List.mem_cons, List.mem_nil_iff, or_false] at hb
  rcases hb with rfl | rfl | rfl | rfl | rfl | rfl | rfl | rfl | rfl | rfl | rfl | rfl | rfl | rfl | rfl | rfl | rfl | rfl
  all_goals host_keep

end Cert.KernelIdeal.Fold

end
-- ==== Proof.FoldBase.lean ====
/-
  The buffers nothing overwrites, followed through the program.

  The program's boundaries are numbered 0 … 16 (`W0` the launch memory, `W5` after the opening host operations,
  then alternately a dense layer's exit and the next host stretch's end). The sixteen argument arrays are written by
  no host operation and by no layer (a layer reads some of them through input windows, which are never written
  back), and the two per-node norm vectors are computed once, before boundary 5, and never written again. So at
  every later boundary each of these eighteen buffers holds what it held at boundary 5: the arguments their launch
  contents, the norm vectors `Chain.nrm` of the two endpoint arrays.
-/
import proofs.«179798_j45311904973178_1_alg».proof.Proof.Gen.KernelIdeal.Frame
import proofs.«179798_j45311904973178_1_alg».proof.Proof.Chain
import proofs.«179798_j45311904973178_1_alg».proof.Proof.FoldNames
import proofs.«179798_j45311904973178_1_alg».proof.Proof.FoldArgs
import proofs.«179798_j45311904973178_1_alg».proof.Proof.FoldNorm
import proofs.«179798_j45311904973178_1_alg».proof.Proof.FoldSteps
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)
/-! ## Every one of the eighteen buffers holds at a later boundary what it held at boundary 5 -/

theorem keep5 (b : Ref sig .tc) (hb : b ∈ live) : Gen.W5 m ρ c (Proc.devRef .tc b) = Gen.W5 m ρ c (Proc.devRef .tc b) := rfl
theorem keep6 (b : Ref sig .tc) (hb : b ∈ live) : Gen.W6 m ρ c (Proc.devRef .tc b) = Gen.W5 m ρ c (Proc.devRef .tc b) :=
  (step6 m ρ c b hb).trans (keep5 m ρ c b hb)
theorem keep7 (b : Ref sig .tc) (hb : b ∈ live) : Gen.W7 m ρ c (Proc.devRef .tc b) = Gen.W5 m ρ c (Proc.devRef .tc b) :=
  (step7 m ρ c b hb).trans (keep6 m ρ c b hb)
theorem keep8 (b : Ref sig .tc) (hb : b ∈ live) : Gen.W8 m ρ c (Proc.devRef .tc b) = Gen.W5 m ρ c (Proc.devRef .tc b) :=
  (step8 m ρ c b hb).trans (keep7 m ρ c b hb)
theorem keep9 (b : Ref sig .tc) (hb : b ∈ live) : Gen.W9 m ρ c (Proc.devRef .tc b) = Gen.W5 m ρ c (Proc.devRef .tc b) :=
  (step9 m ρ c b hb).trans (keep8 m ρ c b hb)
theorem keep10 (b : Ref sig .tc) (hb : b ∈ live) : Gen.W10 m ρ c (Proc.devRef .tc b) = Gen.W5 m ρ c (Proc.devRef .tc b) :=
  (step10 m ρ c b hb).trans (keep9 m ρ c b hb)
theorem keep11 (b : Ref sig .tc) (hb : b ∈ live) : Gen.W11 m ρ c (Proc.devRef .tc b) = Gen.W5 m ρ c (Proc.devRef .tc b) :=
  (step11 m ρ c b hb).trans (keep10 m ρ c b hb)
theorem keep12 (b : Ref sig .tc) (hb : b ∈ live) : Gen.W12 m ρ c (Proc.devRef .tc b) = Gen.W5 m ρ c (Proc.devRef .tc b) :=
  (step12 m ρ c b hb).trans (keep11 m ρ c b hb)
theorem keep13 (b : Ref sig .tc) (hb : b ∈ live) : Gen.W13 m ρ c (Proc.devRef .tc b) = Gen.W5 m ρ c (Proc.devRef .tc b) :=
  (step13 m ρ c b hb).trans (keep12 m ρ c b hb)
theorem keep14 (b : Ref sig .tc) (hb : b ∈ live) : Gen.W14 m ρ c (Proc.devRef .tc b) = Gen.W5 m ρ c (Proc.devRef .tc b) :=
  (step14 m ρ c b hb).trans (keep13 m ρ c b hb)
theorem keep15 (b : Ref sig .tc) (hb : b ∈ live) : Gen.W15 m ρ c (Proc.devRef .tc b) = Gen.W5 m ρ c (Proc.devRef .tc b) :=
  (step15 m ρ c b hb).trans (keep14 m ρ c b hb)

theorem live_of_args {b : Ref sig .tc} (hb : b ∈ args) : b ∈ live := List.mem_cons_of_mem _ (List.mem_cons_of_mem _ hb)

/-- At boundary 6: an argument holds its launch contents; the norm vectors are the norms of the endpoint arrays. -/
theorem arg6 (b : Ref sig .tc) (hb : b ∈ args) : Gen.W6 m ρ c (Proc.devRef .tc b) = m ((c : Thread nD τ).loc b) :=
  (keep6 m ρ c b (live_of_args hb)).trans (arg5 m ρ c b hb)
theorem ns6 : Gen.W6 m ρ c (Proc.devRef .tc main_v10) = Chain.nrm (SRC m c) :=
  (keep6 m ρ c main_v10 (by simp [live])).trans (ns5 m ρ c)
theorem nd6 : Gen.W6 m ρ c (Proc.devRef .tc main_v12) = Chain.nrm (DST m c) :=
  (keep6 m ρ c main_v12 (by simp [live])).trans (nd5 m ρ c)

/-- At boundary 7: an argument holds its launch contents; the norm vectors are the norms of the endpoint arrays. -/
theorem arg7 (b : Ref sig .tc) (hb : b ∈ args) : Gen.W7 m ρ c (Proc.devRef .tc b) = m ((c : Thread nD τ).loc b) :=
  (keep7 m ρ c b (live_of_args hb)).trans (arg5 m ρ c b hb)
theorem ns7 : Gen.W7 m ρ c (Proc.devRef .tc main_v10) = Chain.nrm (SRC m c) :=
  (keep7 m ρ c main_v10 (by simp [live])).trans (ns5 m ρ c)
theorem nd7 : Gen.W7 m ρ c (Proc.devRef .tc main_v12) = Chain.nrm (DST m c) :=
  (keep7 m ρ c main_v12 (by simp [live])).trans (nd5 m ρ c)

/-- At boundary 8: an argument holds its launch contents; the norm vectors are the norms of the endpoint arrays. -/
theorem arg8 (b : Ref sig .tc) (hb : b ∈ args) : Gen.W8 m ρ c (Proc.devRef .tc b) = m ((c : Thread nD τ).loc b) :=
  (keep8 m ρ c b (live_of_args hb)).trans (arg5 m ρ c b hb)
theorem ns8 : Gen.W8 m ρ c (Proc.devRef .tc main_v10) = Chain.nrm (SRC m c) :=
  (keep8 m ρ c main_v10 (by simp [live])).trans (ns5 m ρ c)
theorem nd8 : Gen.W8 m ρ c (Proc.devRef .tc main_v12) = Chain.nrm (DST m c) :=
  (keep8 m ρ c main_v12 (by simp [live])).trans (nd5 m ρ c)

/-- At boundary 9: an argument holds its launch contents; the norm vectors are the norms of the endpoint arrays. -/
theorem arg9 (b : Ref sig .tc) (hb : b ∈ args) : Gen.W9 m ρ c (Proc.devRef .tc b) = m ((c : Thread nD τ).loc b) :=
  (keep9 m ρ c b (live_of_args hb)).trans (arg5 m ρ c b hb)
theorem ns9 : Gen.W9 m ρ c (Proc.devRef .tc main_v10) = Chain.nrm (SRC m c) :=
  (keep9 m ρ c main_v10 (by simp [live])).trans (ns5 m ρ c)
theorem nd9 : Gen.W9 m ρ c (Proc.devRef .tc main_v12) = Chain.nrm (DST m c) :=
  (keep9 m ρ c main_v12 (by simp [live])).trans (nd5 m ρ c)

/-- At boundary 10: an argument holds its launch contents; the norm vectors are the norms of the endpoint arrays. -/
theorem arg10 (b : Ref sig .tc) (hb : b ∈ args) : Gen.W10 m ρ c (Proc.devRef .tc b) = m ((c : Thread nD τ).loc b) :=
  (keep10 m ρ c b (live_of_args hb)).trans (arg5 m ρ c b hb)
theorem ns10 : Gen.W10 m ρ c (Proc.devRef .tc main_v10) = Chain.nrm (SRC m c) :=
  (keep10 m ρ c main_v10 (by simp [live])).trans (ns5 m ρ c)
theorem nd10 : Gen.W10 m ρ c (Proc.devRef .tc main_v12) = Chain.nrm (DST m c) :=
  (keep10 m ρ c main_v12 (by simp [live])).trans (nd5 m ρ c)

/-- At boundary 11: an argument holds its launch contents; the norm vectors are the norms of the endpoint arrays. -/
theorem arg11 (b : Ref sig .tc) (hb : b ∈ args) : Gen.W11 m ρ c (Proc.devRef .tc b) = m ((c : Thread nD τ).loc b) :=
  (keep11 m ρ c b (live_of_args hb)).trans (arg5 m ρ c b hb)
theorem ns11 : Gen.W11 m ρ c (Proc.devRef .tc main_v10) = Chain.nrm (SRC m c) :=
  (keep11 m ρ c main_v10 (by simp [live])).trans (ns5 m ρ c)
theorem nd11 : Gen.W11 m ρ c (Proc.devRef .tc main_v12) = Chain.nrm (DST m c) :=
  (keep11 m ρ c main_v12 (by simp [live])).trans (nd5 m ρ c)

/-- At boundary 12: an argument holds its launch contents; the norm vectors are the norms of the endpoint arrays. -/
theorem arg12 (b : Ref sig .tc) (hb : b ∈ args) : Gen.W12 m ρ c (Proc.devRef .tc b) = m ((c : Thread nD τ).loc b) :=
  (keep12 m ρ c b (live_of_args hb)).trans (arg5 m ρ c b hb)
theorem ns12 : Gen.W12 m ρ c (Proc.devRef .tc main_v10) = Chain.nrm (SRC m c) :=
  (keep12 m ρ c main_v10 (by simp [live])).trans (ns5 m ρ c)
theorem nd12 : Gen.W12 m ρ c (Proc.devRef .tc main_v12) = Chain.nrm (DST m c) :=
  (keep12 m ρ c main_v12 (by simp [live])).trans (nd5 m ρ c)

/-- At boundary 13: an argument holds its launch contents; the norm vectors are the norms of the endpoint arrays. -/
theorem arg13 (b : Ref sig .tc) (hb : b ∈ args) : Gen.W13 m ρ c (Proc.devRef .tc b) = m ((c : Thread nD τ).loc b) :=
  (keep13 m ρ c b (live_of_args hb)).trans (arg5 m ρ c b hb)
theorem ns13 : Gen.W13 m ρ c (Proc.devRef .tc main_v10) = Chain.nrm (SRC m c) :=
  (keep13 m ρ c main_v10 (by simp [live])).trans (ns5 m ρ c)
theorem nd13 : Gen.W13 m ρ c (Proc.devRef .tc main_v12) = Chain.nrm (DST m c) :=
  (keep13 m ρ c main_v12 (by simp [live])).trans (nd5 m ρ c)

/-- At boundary 14: an argument holds its launch contents; the norm vectors are the norms of the endpoint arrays. -/
theorem arg14 (b : Ref sig .tc) (hb : b ∈ args) : Gen.W14 m ρ c (Proc.devRef .tc b) = m ((c : Thread nD τ).loc b) :=
  (keep14 m ρ c b (live_of_args hb)).trans (arg5 m ρ c b hb)
theorem ns14 : Gen.W14 m ρ c (Proc.devRef .tc main_v10) = Chain.nrm (SRC m c) :=
  (keep14 m ρ c main_v10 (by simp [live])).trans (ns5 m ρ c)
theorem nd14 : Gen.W14 m ρ c (Proc.devRef .tc main_v12) = Chain.nrm (DST m c) :=
  (keep14 m ρ c main_v12 (by simp [live])).trans (nd5 m ρ c)

/-- At boundary 15: an argument holds its launch contents; the norm vectors are the norms of the endpoint arrays. -/
theorem arg15 (b : Ref sig .tc) (hb : b ∈ args) : Gen.W15 m ρ c (Proc.devRef .tc b) = m ((c : Thread nD τ).loc b) :=
  (keep15 m ρ c b (live_of_args hb)).trans (arg5 m ρ c b hb)
theorem ns15 : Gen.W15 m ρ c (Proc.devRef .tc main_v10) = Chain.nrm (SRC m c) :=
  (keep15 m ρ c main_v10 (by simp [live])).trans (ns5 m ρ c)
theorem nd15 : Gen.W15 m ρ c (Proc.devRef .tc main_v12) = Chain.nrm (DST m c) :=
  (keep15 m ρ c main_v12 (by simp [live])).trans (nd5 m ρ c)

end Cert.KernelIdeal.Fold

end
-- ==== Proof.Payload.lean ====
/-
  The arithmetic of the dense kernels' bodies, read at one entry of the output block.

  Each body loads a block `x` of 5000 rows and 64 columns, the whole 64 × 64 weight matrix `w` and the bias row
  `b` (1 × 64), rounds `x` and `w` to bf16 (the identity on the extended reals), multiplies them into a zero
  accumulator, adds the bias row to every row and, in three of the five layers, clamps at zero. So entry (p, q)
  of what a body stores is `(∑ k, x (p, k) · w (k, q)) + b (0, q)`, clamped or not.
-/
import proofs.«179798_j45311904973178_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

local notation "D64" => dot_S5000x64_S64x64_S5000x64_1_0_0_1_n_n

theorem lhs0 (i : S5000x64.Idx) (q : (D64).contr.Idx) : ((D64).lhsIdx i q 0).val = (i 0).val := by
  unfold DotDims.lhsIdx
  rw [dif_neg (show ¬(0 : Fin S5000x64.rank) ∈ (D64).lhsBatch by decide), dif_pos (show (0 : Fin S5000x64.rank) ∈ (D64).lhsNonContracting by decide)]
  rfl
theorem lhs1 (i : S5000x64.Idx) (q : (D64).contr.Idx) : ((D64).lhsIdx i q 1).val = (q ⟨0, by decide⟩).val :=
  (D64).lhsIdx_val_of_single rfl i q
theorem rhs0 (i : S5000x64.Idx) (q : (D64).contr.Idx) : ((D64).rhsIdx i q 0).val = (q ⟨0, by decide⟩).val :=
  (D64).rhsIdx_val_of_single rfl i q
theorem rhs1 (i : S5000x64.Idx) (q : (D64).contr.Idx) : ((D64).rhsIdx i q 1).val = (i 1).val := by
  unfold DotDims.rhsIdx
  rw [dif_neg (show ¬(1 : Fin S64x64.rank) ∈ (D64).rhsBatch by decide), dif_pos (show (1 : Fin S64x64.rank) ∈ (D64).rhsNonContracting by decide)]
  rfl

/-- The product of a 5000 × 64 block with the 64 × 64 weights into a zero accumulator: entry (p, q) is the sum over k
    of x (p, k) · w (k, q). -/
theorem matmul64_at (x : FVec Ideal S5000x64 .bf16) (w : FVec Ideal S64x64 .bf16) (p : Fin 5000) (q : Fin 64) :
    matmul (D64) none x w (constant S5000x64 .f32 0x00000000#32) (ix2 p q) = ∑ k : Fin 64, x (ix2 p k) * w (ix2 k q) := by
  simp only [matmul]
  rw [Ideal.matmul_constant_zero_apply, ← Equiv.sum_comp (contrEquiv1 (D64) 64 rfl rfl).symm]
  refine Finset.sum_congr rfl fun k _ => ?_
  have hk := contrEquiv1_symm_val (D64) 64 rfl rfl k
  have el : (D64).lhsIdx (ix2 p q) ((contrEquiv1 (D64) 64 rfl rfl).symm k) = ix2 p k := funext fun a => Fin.ext (by
    match a with
    | ⟨0, _⟩ => exact lhs0 _ _
    | ⟨1, _⟩ => exact (lhs1 _ _).trans hk)
  have er : (D64).rhsIdx (ix2 p q) ((contrEquiv1 (D64) 64 rfl rfl).symm k) = ix2 k q := funext fun a => Fin.ext (by
    match a with
    | ⟨0, _⟩ => exact (rhs0 _ _).trans hk
    | ⟨1, _⟩ => exact rhs1 _ _)
  rw [el, er]

/-- The bias row spread over the 5000 rows: entry (p, q) is b (0, q). -/
theorem biasRow64_at (b : Vec Ideal S1x64 .f32) (hc : S1x64.ShapeCasts S1x64) (hb : S1x64.Broadcasts S5000x64) (p : Fin 5000) (q : Fin 64) :
    broadcastTo S5000x64 (shapeCast S1x64 b hc) hb (ix2 p q) = b (ix2 (0 : Fin 1) q) := by
  rw [shapeCast_self]
  exact broadcastTo_apply b hb (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- The residual layer's body (no clamp). -/
theorem pay0_at (x : Vec Ideal S5000x64 .f32) (w : Vec Ideal S64x64 .f32) (b : Vec Ideal S1x64 .f32) (p : Fin 5000) (q : Fin 64) :
    k0_pay1 (F := Ideal) x w b (ix2 p q) = (∑ k : Fin 64, x (ix2 p k) * w (ix2 k q)) + b (ix2 (0 : Fin 1) q) := by
  unfold k0_pay1
  exact congrArg₂ (· + ·) (matmul64_at _ _ p q) (biasRow64_at b _ _ p q)

/-- The last hidden layer's body (no clamp; the block first passes through a cast to its own shape). -/
theorem pay4_at (x : Vec Ideal S5000x64 .f32) (w : Vec Ideal S64x64 .f32) (b : Vec Ideal S1x64 .f32) (p : Fin 5000) (q : Fin 64) :
    k4_pay1 (F := Ideal) x w b (ix2 p q) = (∑ k : Fin 64, x (ix2 p k) * w (ix2 k q)) + b (ix2 (0 : Fin 1) q) := by
  unfold k4_pay1
  rw [shapeCast_self]
  exact congrArg₂ (· + ·) (matmul64_at _ _ p q) (biasRow64_at b _ _ p q)

/-- A clamped layer's body: the same entry, clamped below at zero. -/
theorem pay1_at (x : Vec Ideal S5000x64 .f32) (w : Vec Ideal S64x64 .f32) (b : Vec Ideal S1x64 .f32) (p : Fin 5000) (q : Fin 64) :
    k1_pay1 (F := Ideal) x w b (ix2 p q) = max ((∑ k : Fin 64, x (ix2 p k) * w (ix2 k q)) + b (ix2 (0 : Fin 1) q)) (Ideal.ofBits .f32 0x00000000#32) := by
  unfold k1_pay1
  rw [shapeCast_self]
  exact congrArg₂ max (congrArg₂ (· + ·) (matmul64_at _ _ p q) (biasRow64_at b _ _ p q)) rfl
theorem pay2_at (x : Vec Ideal S5000x64 .f32) (w : Vec Ideal S64x64 .f32) (b : Vec Ideal S1x64 .f32) (p : Fin 5000) (q : Fin 64) :
    k2_pay1 (F := Ideal) x w b (ix2 p q) = max ((∑ k : Fin 64, x (ix2 p k) * w (ix2 k q)) + b (ix2 (0 : Fin 1) q)) (Ideal.ofBits .f32 0x00000000#32) := by
  unfold k2_pay1
  rw [shapeCast_self]
  exact congrArg₂ max (congrArg₂ (· + ·) (matmul64_at _ _ p q) (biasRow64_at b _ _ p q)) rfl
theorem pay3_at (x : Vec Ideal S5000x64 .f32) (w : Vec Ideal S64x64 .f32) (b : Vec Ideal S1x64 .f32) (p : Fin 5000) (q : Fin 64) :
    k3_pay1 (F := Ideal) x w b (ix2 p q) = max ((∑ k : Fin 64, x (ix2 p k) * w (ix2 k q)) + b (ix2 (0 : Fin 1) q)) (Ideal.ofBits .f32 0x00000000#32) := by
  unfold k3_pay1
  rw [shapeCast_self]
  exact congrArg₂ max (congrArg₂ (· + ·) (matmul64_at _ _ p q) (biasRow64_at b _ _ p q)) rfl

/-! ## The last layer: 64 × 32 weights -/

local notation "D32" => dot_S5000x64_S64x32_S5000x32_1_0_0_1_n_n

theorem lhs0' (i : S5000x32.Idx) (q : (D32).contr.Idx) : ((D32).lhsIdx i q 0).val = (i 0).val := by
  unfold DotDims.lhsIdx
  rw [dif_neg (show ¬(0 : Fin S5000x64.rank) ∈ (D32).lhsBatch by decide), dif_pos (show (0 : Fin S5000x64.rank) ∈ (D32).lhsNonContracting by decide)]
  rfl
theorem lhs1' (i : S5000x32.Idx) (q : (D32).contr.Idx) : ((D32).lhsIdx i q 1).val = (q ⟨0, by decide⟩).val :=
  (D32).lhsIdx_val_of_single rfl i q
theorem rhs0' (i : S5000x32.Idx) (q : (D32).contr.Idx) : ((D32).rhsIdx i q 0).val = (q ⟨0, by decide⟩).val :=
  (D32).rhsIdx_val_of_single rfl i q
theorem rhs1' (i : S5000x32.Idx) (q : (D32).contr.Idx) : ((D32).rhsIdx i q 1).val = (i 1).val := by
  unfold DotDims.rhsIdx
  rw [dif_neg (show ¬(1 : Fin S64x32.rank) ∈ (D32).rhsBatch by decide), dif_pos (show (1 : Fin S64x32.rank) ∈ (D32).rhsNonContracting by decide)]
  rfl

/-- The product of a 5000 × 64 block with the 64 × 32 weights into a zero accumulator. -/
theorem matmul32_at (x : FVec Ideal S5000x64 .bf16) (w : FVec Ideal S64x32 .bf16) (p : Fin 5000) (q : Fin 32) :
    matmul (D32) none x w (constant S5000x32 .f32 0x00000000#32) (ix2 p q) = ∑ k : Fin 64, x (ix2 p k) * w (ix2 k q) := by
  simp only [matmul]
  rw [Ideal.matmul_constant_zero_apply, ← Equiv.sum_comp (contrEquiv1 (D32) 64 rfl rfl).symm]
  refine Finset.sum_congr rfl fun k _ => ?_
  have hk := contrEquiv1_symm_val (D32) 64 rfl rfl k
  have el : (D32).lhsIdx (ix2 p q) ((contrEquiv1 (D32) 64 rfl rfl).symm k) = ix2 p k := funext fun a => Fin.ext (by
    match a with
    | ⟨0, _⟩ => exact lhs0' _ _
    | ⟨1, _⟩ => exact (lhs1' _ _).trans hk)
  have er : (D32).rhsIdx (ix2 p q) ((contrEquiv1 (D32) 64 rfl rfl).symm k) = ix2 k q := funext fun a => Fin.ext (by
    match a with
    | ⟨0, _⟩ => exact (rhs0' _ _).trans hk
    | ⟨1, _⟩ => exact rhs1' _ _)
  rw [el, er]

/-- The 1 × 32 bias row spread over the 5000 rows. -/
theorem biasRow32_at (b : Vec Ideal S1x32 .f32) (hc : S1x32.ShapeCasts S1x32) (hb : S1x32.Broadcasts S5000x32) (p : Fin 5000) (q : Fin 32) :
    broadcastTo S5000x32 (shapeCast S1x32 b hc) hb (ix2 p q) = b (ix2 (0 : Fin 1) q) := by
  rw [shapeCast_self]
  exact broadcastTo_apply b hb (ix2 p q) (ix2 (0 : Fin 1) q) (fun a => match a with
    | ⟨0, _⟩ => by show (0 : Nat) = if (1 : Nat) = 1 then 0 else _; rw [if_pos rfl]
    | ⟨1, _⟩ => by show q.val = if (32 : Nat) = 1 then 0 else q.val; rw [if_neg (by decide)])

/-- The last layer's body: the two blocks added entry by entry, clamped at zero, multiplied with the weights, plus the bias row. -/
theorem pay5_at (h r : Vec Ideal S5000x64 .f32) (w : Vec Ideal S64x32 .f32) (b : Vec Ideal S1x32 .f32) (p : Fin 5000) (q : Fin 32) :
    k5_pay1 (F := Ideal) h r w b (ix2 p q)
      = (∑ k : Fin 64, max (h (ix2 p k) + r (ix2 p k)) (Ideal.ofBits .f32 0x00000000#32) * w (ix2 k q)) + b (ix2 (0 : Fin 1) q) := by
  unfold k5_pay1
  rw [shapeCast_self, shapeCast_self]
  exact congrArg₂ (· + ·) (matmul32_at _ _ p q) (biasRow32_at b _ _ p q)

end Cert.KernelIdeal.Body

end
-- ==== Proof.Region5.lean ====
/-
  What the last layer leaves in the result table, for ANY contents `V` of the buffers when it is entered.

  The result table has 100000 rows and 32 columns, cut into 20 blocks of 5000 rows; grid point t reads rows
  5000·t … 5000·t + 4999 of the hidden table and of the residual table, the whole 64 × 32 weight matrix and the
  whole bias row, and writes the same rows of the result: entry (r, c) is
  `(∑ k, max (h (r, k) + res (r, k)) 0 · w (k, c)) + b (0, c)` — `Spec.affineOfSum` of the four input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: both input tables' rows move with the output rows, every other
    block index is 0, and the output's row-block index is below 20. -/
theorem idx_facts : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 19 :=
  (by decide +kernel : ∀ t : Fin grid5.N, _)

/-- Every one of the 20 row blocks is some point's. -/
theorem idx_onto : ∀ q0 : Fin 20, ∃ t : Fin cfg5.N, win5_4.index t (0 : Fin 2) = q0.val :=
  (by decide +kernel : ∀ q0 : Fin 20, ∃ t : Fin grid5.N, win5_4.index t (0 : Fin 2) = q0.val)

/-- Row p of point t's hidden block is row 5000·(t's block) + p of the hidden table. -/
theorem read_h (c : Dev nD) (t : Fin cfg5.N) (p : Fin 5000) (k : Fin 64) (r : Fin 100000)
    (hr : r.val = win5_4.index t (0 : Fin 2) * 5000 + p.val) :
    iblk5 V c 0 t (ix2 p k) = V c main_v98 (ix2 r k) := by
  obtain ⟨e0, e1, -⟩ := idx_facts t
  show V c main_v98 (((cfg5.win 0).blk t).view.emb (ix2 p k)) = V c main_v98 (ix2 r k)
  refine congrArg _ (funext fun a => Fin.ext ?_)
  match a with
  | ⟨0, _⟩ => show win5_0.index t (0 : Fin 2) * 5000 + 1 * p.val = r.val; omega
  | ⟨1, _⟩ => show win5_0.index t (1 : Fin 2) * 64 + 1 * k.val = k.val; omega

/-- The same for the residual table. -/
theorem read_res (c : Dev nD) (t : Fin cfg5.N) (p : Fin 5000) (k : Fin 64) (r : Fin 100000)
    (hr : r.val = win5_4.index t (0 : Fin 2) * 5000 + p.val) :
    iblk5 V c 1 t (ix2 p k) = V c main_v14 (ix2 r k) := by
  obtain ⟨-, -, e2, e3, -⟩ := idx_facts t
  show V c main_v14 (((cfg5.win 1).blk t).view.emb (ix2 p k)) = V c main_v14 (ix2 r k)
  refine congrArg _ (funext fun a => Fin.ext ?_)
  match a with
  | ⟨0, _⟩ => show win5_1.index t (0 : Fin 2) * 5000 + 1 * p.val = r.val; omega
  | ⟨1, _⟩ => show win5_1.index t (1 : Fin 2) * 64 + 1 * k.val = k.val; omega

/-- The weight block is the whole weight matrix. -/
theorem read_w (c : Dev nD) (t : Fin cfg5.N) (k : Fin 64) (q : Fin 32) :
    iblk5 V c 2 t (ix2 k q) = V c main_arg14 (ix2 k q) := by
  obtain ⟨-, -, -, -, e4, e5, -⟩ := idx_facts t
  show V c main_arg14 (((cfg5.win 2).blk t).view.emb (ix2 k q)) = V c main_arg14 (ix2 k q)
  refine congrArg _ (funext fun a => Fin.ext ?_)
  match a with
  | ⟨0, _⟩ => show win5_2.index t (0 : Fin 2) * 64 + 1 * k.val = k.val; omega
  | ⟨1, _⟩ => show win5_2.index t (1 : Fin 2) * 32 + 1 * q.val = q.val; omega

/-- The bias block is the whole bias row. -/
theorem read_b (c : Dev nD) (t : Fin cfg5.N) (q : Fin 32) :
    iblk5 V c 3 t (ix2 (0 : Fin 1) q) = V c main_v99 (ix2 (0 : Fin 1) q) := by
  obtain ⟨-, -, -, -, -, -, e6, e7, -⟩ := idx_facts t
  show V c main_v99 (((cfg5.win 3).blk t).view.emb (ix2 (0 : Fin 1) q)) = V c main_v99 (ix2 (0 : Fin 1) q)
  refine congrArg _ (funext fun a => Fin.ext ?_)
  match a with
  | ⟨0, _⟩ => show win5_3.index t (0 : Fin 2) * 1 + 1 * 0 = 0; omega
  | ⟨1, _⟩ => show win5_3.index t (1 : Fin 2) * 32 + 1 * q.val = q.val; omega

/-- Row p of point t's output block is row 5000·(t's block) + p of the result table. -/
theorem emb_out (t : Fin cfg5.N) (p : Fin 5000) (q : Fin 32) (r : Fin 100000)
    (hr : r.val = win5_4.index t (0 : Fin 2) * 5000 + p.val) :
    ((cfg5.win 4).blk t).view.emb (ix2 p q) = ix2 r q := by
  obtain ⟨-, -, -, -, -, -, -, -, e8, -⟩ := idx_facts t
  refine funext fun a => Fin.ext ?_
  match a with
  | ⟨0, _⟩ => show win5_4.index t (0 : Fin 2) * 5000 + 1 * p.val = r.val; omega
  | ⟨1, _⟩ => show win5_4.index t (1 : Fin 2) * 32 + 1 * q.val = q.val; omega

/-- WHAT POINT t WRITES BACK is block t of the last layer of the arrays as it finds them. -/
theorem flushed_eq (c : Dev nD) (t : Fin cfg5.N) :
    (dat5 V c).flushed 4 t = ((cfg5.win 4).blk t).view.read (Elt Ideal)
      (Spec.affineOfSum (V c main_v98) (V c main_v14) (V c main_arg14) (V c main_v99)) := by
  show (cfg5.win 4).cut (grid5.coords t) ((dat5 V c).after 4 t) = _
  rw [after5_4]
  unfold out5_4
  rw [View.canon_unit_zero hz]
  simp only [View.ld_unit_zero (S := S5000x64) hz, View.ld_unit_zero (S := S64x32) hz, View.ld_unit_zero (S := S1x32) hz]
  have h19 : win5_4.index t (0 : Fin 2) ≤ 19 := (idx_facts t).2.2.2.2.2.2.2.2.2
  funext j
  obtain ⟨p, q, rfl⟩ : ∃ (p : Fin 5000) (q : Fin 32), j = ix2 p q := ⟨j 0, j 1, eq_ix2 j⟩
  have hp : p.val < 5000 := p.isLt
  let r : Fin 100000 := ⟨win5_4.index t (0 : Fin 2) * 5000 + p.val, by omega⟩
  refine (Body.pay5_at (iblk5 V c 0 t) (iblk5 V c 1 t) (iblk5 V c 2 t) (iblk5 V c 3 t) p q).trans ?_
  show _ = Spec.affineOfSum (V c main_v98) (V c main_v14) (V c main_arg14) (V c main_v99) (((cfg5.win 4).blk t).view.emb (ix2 p q))
  rw [emb_out t p q r rfl]
  unfold Spec.affineOfSum
  rw [Spec.affine_apply, read_b V c t q]
  refine congrArg (· + _) (Finset.sum_congr rfl fun k _ => ?_)
  rw [read_h V c t p k r rfl, read_res V c t p k r rfl, read_w V c t k q]
  rfl

/-- An index of the table is in point t's block iff each coordinate is in the block's range on its axis. -/
theorem mem_blk (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v100).slice (win5_4.rect t)).set ↔ _
  rw [View.set_slice_whole, Rect.mem_set_unit]
  exact Iff.rfl

/-- Every entry of the table is in some point's block: row r is in block r / 5000. -/
theorem cover (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  obtain ⟨t, ht⟩ := idx_onto ⟨(i 0).val / 5000, by omega⟩
  have q0 : win5_4.index t (0 : Fin 2) = (i 0).val / 5000 := ht
  have q1 : win5_4.index t (1 : Fin 2) = 0 := (idx_facts t).2.2.2.2.2.2.2.2.1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 32 ≤ (i 1).val ∧ (i 1).val < win5_4.index t (1 : Fin 2) * 32 + 32; omega

/-- THE RESULT TABLE after the layer. -/
theorem arr_eq (c : Dev nD) :
    (dat5 V c).arrAt 4 cfg5.N = Spec.affineOfSum (V c main_v98) (V c main_v14) (V c main_arg14) (V c main_v99) :=
  (dat5 V c).arrAt_eq_of_cover 4 _ (fun t _ => flushed_eq V c t) cover

end Cert.KernelIdeal.Region5

end
-- ==== Proof.Region0.lean ====
/-
  What the first dense layer (the residual branch, x · Wr + br) leaves in its output table, for ANY contents
  `V` of the buffers when the layer is entered.

  The table has 100000 rows, cut into 20 blocks of 5000 rows; grid point t handles block t: it reads rows
  5000·t … 5000·t + 4999 of the input table, the whole weight matrix and the whole bias row, and writes rows
  5000·t … 5000·t + 4999 of the output. So entry (r, c) of the output is written by point r / 5000 and holds
  `(∑ k, x (r, k) · w (k, c)) + b (0, c)`: the output is `Spec.affine` of the three input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: the input rows move with the output rows, every other block
    index is 0, and the output's row-block index is below 20. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every one of the 20 row blocks is some point's. -/
theorem idx_onto : ∀ q0 : Fin 20, ∃ t : Fin cfg0.N, win0_3.index t (0 : Fin 2) = q0.val :=
  (by decide +kernel : ∀ q0 : Fin 20, ∃ t : Fin grid0.N, win0_3.index t (0 : Fin 2) = q0.val)

/-- Row p of point t's input block is row 5000·(t's block) + p of the input table. -/
theorem read_x (c : Dev nD) (t : Fin cfg0.N) (p : Fin 5000) (k : Fin 64) (r : Fin 100000)
    (hr : r.val = win0_3.index t (0 : Fin 2) * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The weight block is the whole weight matrix. -/
theorem read_w (c : Dev nD) (t : Fin cfg0.N) (k q : Fin 64) :
    iblk0 V c 1 t (ix2 k q) = V c main_arg12 (ix2 k q) := by
  obtain ⟨-, -, e2, e3, -⟩ := idx_facts t
  show V c main_arg12 (((cfg0.win 1).blk t).view.emb (ix2 k q)) = V c main_arg12 (ix2 k q)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias block is the whole bias row. -/
theorem read_b (c : Dev nD) (t : Fin cfg0.N) (q : Fin 64) :
    iblk0 V c 2 t (ix2 (0 : Fin 1) q) = V c main_v13 (ix2 (0 : Fin 1) q) := by
  obtain ⟨-, -, -, -, e4, e5, -⟩ := idx_facts t
  show V c main_v13 (((cfg0.win 2).blk t).view.emb (ix2 (0 : Fin 1) q)) = V c main_v13 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- Row p of point t's output block is row 5000·(t's block) + p of the output table. -/
theorem emb_out (t : Fin cfg0.N) (p : Fin 5000) (q : Fin 64) (r : Fin 100000)
    (hr : r.val = win0_3.index t (0 : Fin 2) * 5000 + p.val) :
    ((cfg0.win 3).blk t).view.emb (ix2 p q) = ix2 r q := by
  obtain ⟨-, -, -, -, -, -, e6, -⟩ := idx_facts t
  refine funext fun a => Fin.ext ?_
  match a with
  | ⟨0, _⟩ => show win0_3.index t (0 : Fin 2) * 5000 + 1 * p.val = r.val; omega
  | ⟨1, _⟩ => show win0_3.index t (1 : Fin 2) * 64 + 1 * q.val = q.val; omega

/-- WHAT POINT t WRITES BACK is block t of the dense layer of the arrays as the layer finds them. -/
theorem flushed_eq (c : Dev nD) (t : Fin cfg0.N) :
    (dat0 V c).flushed 3 t = ((cfg0.win 3).blk t).view.read (Elt Ideal)
      (Spec.affine (V c main_arg0) (V c main_arg12) (V c main_v13)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  have h19 : win0_3.index t (0 : Fin 2) ≤ 19 := (idx_facts t).2.2.2.2.2.2.2
  funext j
  obtain ⟨p, q, rfl⟩ : ∃ (p : Fin 5000) (q : Fin 64), j = ix2 p q := ⟨j 0, j 1, eq_ix2 j⟩
  have hp : p.val < 5000 := p.isLt
  let r : Fin 100000 := ⟨win0_3.index t (0 : Fin 2) * 5000 + p.val, by omega⟩
  refine (Body.pay0_at (iblk0 V c 0 t) (iblk0 V c 1 t) (iblk0 V c 2 t) p q).trans ?_
  show _ = Spec.affine (V c main_arg0) (V c main_arg12) (V c main_v13) (((cfg0.win 3).blk t).view.emb (ix2 p q))
  rw [emb_out t p q r rfl, Spec.affine_apply, read_b V c t q]
  refine congrArg (· + _) (Finset.sum_congr rfl fun k _ => ?_)
  rw [read_x V c t p k r rfl, read_w V c t k q]

/-- An index of the table is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Every entry of the table is in some point's block: row r is in block r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := ht
  have q1 : win0_3.index t (1 : Fin 2) = 0 := (idx_facts t).2.2.2.2.2.2.1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT TABLE after the layer: the dense layer of the input table, the weights and the bias row as entered. -/
theorem arr_eq (c : Dev nD) :
    (dat0 V c).arrAt 3 cfg0.N = Spec.affine (V c main_arg0) (V c main_arg12) (V c main_v13) :=
  (dat0 V c).arrAt_eq_of_cover 3 _ (fun t _ => flushed_eq V c t) cover

end Cert.KernelIdeal.Region0

end
-- ==== Proof.FoldRes.lean ====
/-
  The residual branch: what the first dense layer leaves, and that nothing overwrites it before the last layer reads it.

  The first layer writes `x · Wr + br` (`Spec.affine` of the argument table, the residual weights and the bias row) into
  its own table; the host stretches after it write other buffers and the four hidden layers write their own tables,
  so the residual table is the same at every boundary up to the last layer's entry.
-/
import proofs.«179798_j45311904973178_1_alg».proof.Proof.Gen.KernelIdeal.Frame
import proofs.«179798_j45311904973178_1_alg».proof.Proof.FoldBase
import proofs.«179798_j45311904973178_1_alg».proof.Proof.Region0
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- The residual table at the first layer's exit. -/
theorem res6 : Gen.W6 m ρ c (Proc.devRef .tc main_v14) = Spec.affine (X m c) (WR m c) (Chain.rowOf64 (BR m c)) := by
  refine (W6_arr m ρ c 3).trans ((Region0.arr_eq (V5 m ρ) c).trans ?_)
  show Spec.affine (Gen.W5 m ρ c (Proc.devRef .tc main_arg0)) (Gen.W5 m ρ c (Proc.devRef .tc main_arg12)) (Gen.W5 m ρ c (Proc.devRef .tc main_v13)) = _
  rw [arg5 m ρ c main_arg0 (by simp [args]), arg5 m ρ c main_arg12 (by simp [args]), rowR5 m ρ c]
theorem resStep7 : Gen.W7 m ρ c (Proc.devRef .tc main_v14) = Gen.W6 m ρ c (Proc.devRef .tc main_v14) := by host_keep
theorem resStep8 : Gen.W8 m ρ c (Proc.devRef .tc main_v14) = Gen.W7 m ρ c (Proc.devRef .tc main_v14) := W8_of_ne m ρ c _ (by decide)
theorem resStep9 : Gen.W9 m ρ c (Proc.devRef .tc main_v14) = Gen.W8 m ρ c (Proc.devRef .tc main_v14) := by host_keep
theorem resStep10 : Gen.W10 m ρ c (Proc.devRef .tc main_v14) = Gen.W9 m ρ c (Proc.devRef .tc main_v14) := W10_of_ne m ρ c _ (by decide)
theorem resStep11 : Gen.W11 m ρ c (Proc.devRef .tc main_v14) = Gen.W10 m ρ c (Proc.devRef .tc main_v14) := by host_keep
theorem resStep12 : Gen.W12 m ρ c (Proc.devRef .tc main_v14) = Gen.W11 m ρ c (Proc.devRef .tc main_v14) := W12_of_ne m ρ c _ (by decide)
theorem resStep13 : Gen.W13 m ρ c (Proc.devRef .tc main_v14) = Gen.W12 m ρ c (Proc.devRef .tc main_v14) := by host_keep
theorem resStep14 : Gen.W14 m ρ c (Proc.devRef .tc main_v14) = Gen.W13 m ρ c (Proc.devRef .tc main_v14) := W14_of_ne m ρ c _ (by decide)
theorem resStep15 : Gen.W15 m ρ c (Proc.devRef .tc main_v14) = Gen.W14 m ρ c (Proc.devRef .tc main_v14) := by host_keep

/-- The residual table at the last layer's entry. -/
theorem res15 : Gen.W15 m ρ c (Proc.devRef .tc main_v14) = Spec.affine (X m c) (WR m c) (Chain.rowOf64 (BR m c)) :=
  (resStep15 m ρ c).trans ((resStep14 m ρ c).trans ((resStep13 m ρ c).trans ((resStep12 m ρ c).trans ((resStep11 m ρ c).trans
    ((resStep10 m ρ c).trans ((resStep9 m ρ c).trans ((resStep8 m ρ c).trans ((resStep7 m ρ c).trans (res6 m ρ c)))))))))

end Cert.KernelIdeal.Fold

end
-- ==== Proof.Region1.lean ====
/-
  What the first hidden layer (clamped at zero) leaves in its output table, for ANY contents
  `V` of the buffers when the layer is entered.

  The table has 100000 rows, cut into 20 blocks of 5000 rows; grid point t handles block t: it reads rows
  5000·t … 5000·t + 4999 of the input table, the whole weight matrix and the whole bias row, and writes rows
  5000·t … 5000·t + 4999 of the output. So entry (r, c) of the output is written by point r / 5000 and holds
  `max ((∑ k, x (r, k) · w (k, c)) + b (0, c)) 0`: the output is `Spec.relu` of `Spec.affine` of the three input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: the input rows move with the output rows, every other block
    index is 0, and the output's row-block index is below 20. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the 20 row blocks is some point's. -/
theorem idx_onto : ∀ q0 : Fin 20, ∃ t : Fin cfg1.N, win1_3.index t (0 : Fin 2) = q0.val :=
  (by decide +kernel : ∀ q0 : Fin 20, ∃ t : Fin grid1.N, win1_3.index t (0 : Fin 2) = q0.val)

/-- Row p of point t's input block is row 5000·(t's block) + p of the input table. -/
theorem read_x (c : Dev nD) (t : Fin cfg1.N) (p : Fin 5000) (k : Fin 64) (r : Fin 100000)
    (hr : r.val = win1_3.index t (0 : Fin 2) * 5000 + p.val) :
    iblk1 V c 0 t (ix2 p k) = V c main_v33 (ix2 r k) := by
  obtain ⟨e0, e1, -⟩ := idx_facts t
  show V c main_v33 (((cfg1.win 0).blk t).view.emb (ix2 p k)) = V c main_v33 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The weight block is the whole weight matrix. -/
theorem read_w (c : Dev nD) (t : Fin cfg1.N) (k q : Fin 64) :
    iblk1 V c 1 t (ix2 k q) = V c main_arg4 (ix2 k q) := by
  obtain ⟨-, -, e2, e3, -⟩ := idx_facts t
  show V c main_arg4 (((cfg1.win 1).blk t).view.emb (ix2 k q)) = V c main_arg4 (ix2 k q)
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias block is the whole bias row. -/
theorem read_b (c : Dev nD) (t : Fin cfg1.N) (q : Fin 64) :
    iblk1 V c 2 t (ix2 (0 : Fin 1) q) = V c main_v34 (ix2 (0 : Fin 1) q) := by
  obtain ⟨-, -, -, -, e4, e5, -⟩ := idx_facts t
  show V c main_v34 (((cfg1.win 2).blk t).view.emb (ix2 (0 : Fin 1) q)) = V c main_v34 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- Row p of point t's output block is row 5000·(t's block) + p of the output table. -/
theorem emb_out (t : Fin cfg1.N) (p : Fin 5000) (q : Fin 64) (r : Fin 100000)
    (hr : r.val = win1_3.index t (0 : Fin 2) * 5000 + p.val) :
    ((cfg1.win 3).blk t).view.emb (ix2 p q) = ix2 r q := by
  obtain ⟨-, -, -, -, -, -, e6, -⟩ := idx_facts t
  refine funext fun a => Fin.ext ?_
  match a with
  | ⟨0, _⟩ => show win1_3.index t (0 : Fin 2) * 5000 + 1 * p.val = r.val; omega
  | ⟨1, _⟩ => show win1_3.index t (1 : Fin 2) * 64 + 1 * q.val = q.val; omega

/-- WHAT POINT t WRITES BACK is block t of the clamped dense layer of the arrays as the layer finds them. -/
theorem flushed_eq (c : Dev nD) (t : Fin cfg1.N) :
    (dat1 V c).flushed 3 t = ((cfg1.win 3).blk t).view.read (Elt Ideal)
      (Spec.relu (Spec.affine (V c main_v33) (V c main_arg4) (V c main_v34))) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  have h19 : win1_3.index t (0 : Fin 2) ≤ 19 := (idx_facts t).2.2.2.2.2.2.2
  funext j
  obtain ⟨p, q, rfl⟩ : ∃ (p : Fin 5000) (q : Fin 64), j = ix2 p q := ⟨j 0, j 1, eq_ix2 j⟩
  have hp : p.val < 5000 := p.isLt
  let r : Fin 100000 := ⟨win1_3.index t (0 : Fin 2) * 5000 + p.val, by omega⟩
  refine (Body.pay1_at (iblk1 V c 0 t) (iblk1 V c 1 t) (iblk1 V c 2 t) p q).trans ?_
  show _ = Spec.relu (Spec.affine (V c main_v33) (V c main_arg4) (V c main_v34)) (((cfg1.win 3).blk t).view.emb (ix2 p q))
  rw [emb_out t p q r rfl]
  show _ = max (Spec.affine (V c main_v33) (V c main_arg4) (V c main_v34) (ix2 r q)) _
  rw [Spec.affine_apply, read_b V c t q]
  refine congrArg (max · _) (congrArg (· + _) (Finset.sum_congr rfl fun k _ => ?_))
  rw [read_x V c t p k r rfl, read_w V c t k q]

/-- An index of the table is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- Every entry of the table is in some point's block: row r is in block r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := ht
  have q1 : win1_3.index t (1 : Fin 2) = 0 := (idx_facts t).2.2.2.2.2.2.1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT TABLE after the layer: the clamped dense layer of the input table, the weights and the bias row as entered. -/
theorem arr_eq (c : Dev nD) :
    (dat1 V c).arrAt 3 cfg1.N = Spec.relu (Spec.affine (V c main_v33) (V c main_arg4) (V c main_v34)) :=
  (dat1 V c).arrAt_eq_of_cover 3 _ (fun t _ => flushed_eq V c t) cover

end Cert.KernelIdeal.Region1

end
-- ==== Proof.FoldStage1.lean ====
/-
  Hidden layer 1, from the table `H` the previous step left to the table this layer leaves.

  The host stretch before the layer applies the message-passing stage `Chain.prep` to `H`, the edge arrays and
  the two norm vectors, and reshapes the layer's bias to a row — read once for ANY contents `V` of the buffers
  before the stretch, then taken at the previous boundary, where the arguments hold their launch contents; the
  layer then writes the clamped dense layer of that table.
-/
import proofs.«179798_j45311904973178_1_alg».proof.Proof.Gen.KernelIdeal.Frame
import proofs.«179798_j45311904973178_1_alg».proof.Proof.FoldBase
import proofs.«179798_j45311904973178_1_alg».proof.Proof.Region1
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

section Reads
variable (V : Valuation τ sig (Elt Ideal))

set_option maxHeartbeats 4000000 in
/-- The stretch's message-passing result, as `Chain.prep` of what the buffers hold before it. -/
theorem agg1_read : StableHlo.after hostOps1 V (Proc.devRef .tc main_v33)
    = Chain.prep (V (Proc.devRef .tc main_arg0) : Chain.Tab) (V (Proc.devRef .tc main_arg1) : Chain.EdgeIdx) (V (Proc.devRef .tc main_arg2) : Chain.EdgeIdx)
        (V (Proc.devRef .tc main_arg3) : Chain.EdgeVec) (V (Proc.devRef .tc main_v10) : Chain.NodeVec) (V (Proc.devRef .tc main_v12) : Chain.NodeVec) := by
  after_results_simp <;> rfl

set_option maxHeartbeats 4000000 in
/-- The layer's bias, reshaped to a row by the stretch. -/
theorem row1_read : StableHlo.after hostOps1 V (Proc.devRef .tc main_v34) = Chain.rowOf64 (V (Proc.devRef .tc main_arg5) : Chain.Vec64) := by
  after_results_simp <;> rfl

end Reads

theorem agg1 (H : Chain.Tab) (hH : Gen.W6 m ρ c (Proc.devRef .tc main_arg0) = H) :
    Gen.W7 m ρ c (Proc.devRef .tc main_v33) = Chain.prep H (SRC m c) (DST m c) (EW m c) (Chain.nrm (SRC m c)) (Chain.nrm (DST m c)) := by
  refine (agg1_read (Gen.W6 m ρ c)).trans ?_
  rw [hH, arg6 m ρ c main_arg1 (by simp [args]), arg6 m ρ c main_arg2 (by simp [args]), arg6 m ρ c main_arg3 (by simp [args]),
    ns6 m ρ c, nd6 m ρ c]

theorem row1 : Gen.W7 m ρ c (Proc.devRef .tc main_v34) = Chain.rowOf64 (B1 m c) := by
  refine (row1_read (Gen.W6 m ρ c)).trans ?_
  rw [arg6 m ρ c main_arg5 (by simp [args])]

/-- What the layer leaves: the clamped dense layer of the message-passing result. -/
theorem stage1 (H : Chain.Tab) (hH : Gen.W6 m ρ c (Proc.devRef .tc main_arg0) = H) :
    Gen.W8 m ρ c (Proc.devRef .tc main_v35) = Spec.relu (Chain.layer H (SRC m c) (DST m c) (EW m c) (Wt1 m c) (Chain.rowOf64 (B1 m c))) := by
  refine (W8_arr m ρ c 3).trans ((Region1.arr_eq (V7 m ρ) c).trans ?_)
  show Spec.relu (Spec.affine (Gen.W7 m ρ c (Proc.devRef .tc main_v33)) (Gen.W7 m ρ c (Proc.devRef .tc main_arg4)) (Gen.W7 m ρ c (Proc.devRef .tc main_v34))) = _
  rw [agg1 m ρ c H hH, row1 m ρ c, arg7 m ρ c main_arg4 (by simp [args])]
  rfl

end Cert.KernelIdeal.Fold

end
-- ==== Proof.Region2.lean ====
/-
  What the second hidden layer (clamped at zero) leaves in its output table, for ANY contents
  `V` of the buffers when the layer is entered.

  The table has 100000 rows, cut into 20 blocks of 5000 rows; grid point t handles block t: it reads rows
  5000·t … 5000·t + 4999 of the input table, the whole weight matrix and the whole bias row, and writes rows
  5000·t … 5000·t + 4999 of the output. So entry (r, c) of the output is written by point r / 5000 and holds
  `max ((∑ k, x (r, k) · w (k, c)) + b (0, c)) 0`: the output is `Spec.relu` of `Spec.affine` of the three input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: the input rows move with the output rows, every other block
    index is 0, and the output's row-block index is below 20. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every one of the 20 row blocks is some point's. -/
theorem idx_onto : ∀ q0 : Fin 20, ∃ t : Fin cfg2.N, win2_3.index t (0 : Fin 2) = q0.val :=
  (by decide +kernel : ∀ q0 : Fin 20, ∃ t : Fin grid2.N, win2_3.index t (0 : Fin 2) = q0.val)

/-- Row p of point t's input block is row 5000·(t's block) + p of the input table. -/
theorem read_x (c : Dev nD) (t : Fin cfg2.N) (p : Fin 5000) (k : Fin 64) (r : Fin 100000)
    (hr : r.val = win2_3.index t (0 : Fin 2) * 5000 + p.val) :
    iblk2 V c 0 t (ix2 p k) = V c main_v54 (ix2 r k) := by
  obtain ⟨e0, e1, -⟩ := idx_facts t
  show V c main_v54 (((cfg2.win 0).blk t).view.emb (ix2 p k)) = V c main_v54 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weight block is the whole weight matrix. -/
theorem read_w (c : Dev nD) (t : Fin cfg2.N) (k q : Fin 64) :
    iblk2 V c 1 t (ix2 k q) = V c main_arg6 (ix2 k q) := by
  obtain ⟨-, -, e2, e3, -⟩ := idx_facts t
  show V c main_arg6 (((cfg2.win 1).blk t).view.emb (ix2 k q)) = V c main_arg6 (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The bias block is the whole bias row. -/
theorem read_b (c : Dev nD) (t : Fin cfg2.N) (q : Fin 64) :
    iblk2 V c 2 t (ix2 (0 : Fin 1) q) = V c main_v55 (ix2 (0 : Fin 1) q) := by
  obtain ⟨-, -, -, -, e4, e5, -⟩ := idx_facts t
  show V c main_v55 (((cfg2.win 2).blk t).view.emb (ix2 (0 : Fin 1) q)) = V c main_v55 (ix2 (0 : Fin 1) q)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- Row p of point t's output block is row 5000·(t's block) + p of the output table. -/
theorem emb_out (t : Fin cfg2.N) (p : Fin 5000) (q : Fin 64) (r : Fin 100000)
    (hr : r.val = win2_3.index t (0 : Fin 2) * 5000 + p.val) :
    ((cfg2.win 3).blk t).view.emb (ix2 p q) = ix2 r q := by
  obtain ⟨-, -, -, -, -, -, e6, -⟩ := idx_facts t
  refine funext fun a => Fin.ext ?_
  match a with
  | ⟨0, _⟩ => show win2_3.index t (0 : Fin 2) * 5000 + 1 * p.val = r.val; omega
  | ⟨1, _⟩ => show win2_3.index t (1 : Fin 2) * 64 + 1 * q.val = q.val; omega

/-- WHAT POINT t WRITES BACK is block t of the clamped dense layer of the arrays as the layer finds them. -/
theorem flushed_eq (c : Dev nD) (t : Fin cfg2.N) :
    (dat2 V c).flushed 3 t = ((cfg2.win 3).blk t).view.read (Elt Ideal)
      (Spec.relu (Spec.affine (V c main_v54) (V c main_arg6) (V c main_v55))) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  have h19 : win2_3.index t (0 : Fin 2) ≤ 19 := (idx_facts t).2.2.2.2.2.2.2
  funext j
  obtain ⟨p, q, rfl⟩ : ∃ (p : Fin 5000) (q : Fin 64), j = ix2 p q := ⟨j 0, j 1, eq_ix2 j⟩
  have hp : p.val < 5000 := p.isLt
  let r : Fin 100000 := ⟨win2_3.index t (0 : Fin 2) * 5000 + p.val, by omega⟩
  refine (Body.pay2_at (iblk2 V c 0 t) (iblk2 V c 1 t) (iblk2 V c 2 t) p q).trans ?_
  show _ = Spec.relu (Spec.affine (V c main_v54) (V c main_arg6) (V c main_v55)) (((cfg2.win 3).blk t).view.emb (ix2 p q))
  rw [emb_out t p q r rfl]
  show _ = max (Spec.affine (V c main_v54) (V c main_arg6) (V c main_v55) (ix2 r q)) _
  rw [Spec.affine_apply, read_b V c t q]
  refine congrArg (max · _) (congrArg (· + _) (Finset.sum_congr rfl fun k _ => ?_))
  rw [read_x V c t p k r rfl, read_w V c t k q]

/-- An index of the table is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v56).slice (win2_3.rect t)).set ↔ _
  rw [View.set_slice_whole, Rect.mem_set_unit]
  exact Iff.rfl

/-- Every entry of the table is in some point's block: row r is in block r / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 5000, by omega⟩
  have q0 : win2_3.index t (0 : Fin 2) = (i 0).val / 5000 := ht
  have q1 : win2_3.index t (1 : Fin 2) = 0 := (idx_facts t).2.2.2.2.2.2.1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE OUTPUT TABLE after the layer: the clamped dense layer of the input table, the weights and the bias row as entered. -/
theorem arr_eq (c : Dev nD) :
    (dat2 V c).arrAt 3 cfg2.N = Spec.relu (Spec.affine (V c main_v54) (V c main_arg6) (V c main_v55)) :=
  (dat2 V c).arrAt_eq_of_cover 3 _ (fun t _ => flushed_eq V c t) cover

end Cert.KernelIdeal.Region2

end
-- ==== Proof.FoldStage2.lean ====
/-
  Hidden layer 2, from the table `H` the previous step left to the table this layer leaves.

  The host stretch before the layer applies the message-passing stage `Chain.prep` to `H`, the edge arrays and
  the two norm vectors, and reshapes the layer's bias to a row — read once for ANY contents `V` of the buffers
  before the stretch, then taken at the previous boundary, where the arguments hold their launch contents; the
  layer then writes the clamped dense layer of that table.
-/
import proofs.«179798_j45311904973178_1_alg».proof.Proof.Gen.KernelIdeal.Frame
import proofs.«179798_j45311904973178_1_alg».proof.Proof.FoldBase
import proofs.«179798_j45311904973178_1_alg».proof.Proof.Region2
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

section Reads
variable (V : Valuation τ sig (Elt Ideal))

set_option maxHeartbeats 4000000 in
/-- The stretch's message-passing result, as `Chain.prep` of what the buffers hold before it. -/
theorem agg2_read : StableHlo.after hostOps2 V (Proc.devRef .tc main_v54)
    = Chain.prep (V (Proc.devRef .tc main_v35) : Chain.Tab) (V (Proc.devRef .tc main_arg1) : Chain.EdgeIdx) (V (Proc.devRef .tc main_arg2) : Chain.EdgeIdx)
        (V (Proc.devRef .tc main_arg3) : Chain.EdgeVec) (V (Proc.devRef .tc main_v10) : Chain.NodeVec) (V (Proc.devRef .tc main_v12) : Chain.NodeVec) := by
  after_results_simp <;> rfl

set_option maxHeartbeats 4000000 in
/-- The layer's bias, reshaped to a row by the stretch. -/
theorem row2_read : StableHlo.after hostOps2 V (Proc.devRef .tc main_v55) = Chain.rowOf64 (V (Proc.devRef .tc main_arg7) : Chain.Vec64) := by
  after_results_simp <;> rfl

end Reads

theorem agg2 (H : Chain.Tab) (hH : Gen.W8 m ρ c (Proc.devRef .tc main_v35) = H) :
    Gen.W9 m ρ c (Proc.devRef .tc main_v54) = Chain.prep H (SRC m c) (DST m c) (EW m c) (Chain.nrm (SRC m c)) (Chain.nrm (DST m c)) := by
  refine (agg2_read (Gen.W8 m ρ c)).trans ?_
  rw [hH, arg8 m ρ c main_arg1 (by simp [args]), arg8 m ρ c main_arg2 (by simp [args]), arg8 m ρ c main_arg3 (by simp [args]),
    ns8 m ρ c, nd8 m ρ c]

theorem row2 : Gen.W9 m ρ c (Proc.devRef .tc main_v55) = Chain.rowOf64 (B2 m c) := by
  refine (row2_read (Gen.W8 m ρ c)).trans ?_
  rw [arg8 m ρ c main_arg7 (by simp [args])]

/-- What the layer leaves: the clamped dense layer of the message-passing result. -/
theorem stage2 (H : Chain.Tab) (hH : Gen.W8 m ρ c (Proc.devRef .tc main_v35) = H) :
    Gen.W10 m ρ c (Proc.devRef .tc main_v56) = Spec.relu (Chain.layer H (SRC m c) (DST m c) (EW m c) (Wt2 m c) (Chain.rowOf64 (B2 m c))) := by
  refine (W10_arr m ρ c 3).trans ((Region2.arr_eq (V9 m ρ) c).trans ?_)
  show Spec.relu (Spec.affine (Gen.W9 m ρ c (Proc.devRef .tc main_v54)) (Gen.W9 m ρ c (Proc.devRef .tc main_arg6)) (Gen.W9 m ρ c (Proc.devRef .tc main_v55))) = _
  rw [agg2 m ρ c H hH, row2 m ρ c, arg9 m ρ c main_arg6 (by simp [args])]
  rfl

end Cert.KernelIdeal.Fold

end
-- ==== Proof.Region3.lean ====
/-
  What the third hidden layer (clamped at zero) leaves in its output table, for ANY contents
  `V` of the buffers when the layer is entered.

  The table has 100000 rows, cut into 20 blocks of 5000 rows; grid point t handles block t: it reads rows
  5000·t … 5000·t + 4999 of the input table, the whole weight matrix and the whole bias row, and writes rows
  5000·t … 5000·t + 4999 of the output. So entry (r, c) of the output is written by point r / 5000 and holds
  `max ((∑ k, x (r, k) · w (k, c)) + b (0, c)) 0`: the output is `Spec.relu` of `Spec.affine` of the three input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: the input rows move with the output rows, every other block
    index is 0, and the output's row-block index is below 20. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every one of the 20 row blocks is some point's. -/
theorem idx_onto : ∀ q0 : Fin 20, ∃ t : Fin cfg3.N, win3_3.index t (0 : Fin 2) = q0.val :=
  (by decide +kernel : ∀ q0 : Fin 20, ∃ t : Fin grid3.N, win3_3.index t (0 : Fin 2) = q0.val)

/-- Row p of point t's input block is row 5000·(t's block) + p of the input table. -/
theorem read_x (c : Dev nD) (t : Fin cfg3.N) (p : Fin 5000) (k : Fin 64) (r : Fin 100000)
    (hr : r.val = win3_3.index t (0 : Fin 2) * 5000 + p.val) :
    iblk3 V c 0 t (ix2 p k) = V c main_v75 (ix2 r k) := by
  obtain ⟨e0, e1, -⟩ := idx_facts t
  show V c main_v75 (((cfg3.win 0).blk t).view.emb (ix2 p k)) = V c main_v75 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- The weight block is the whole weight matrix. -/
theorem read_w (c : Dev nD) (t : Fin cfg3.N) (k q : Fin 64) :
    iblk3 V c 1 t (ix2 k q) = V c main_arg8 (ix2 k q) := by
  obtain ⟨-, -, e2, e3, -⟩ := idx_facts t
  show V c main_arg8 (((cfg3.win 1).blk t).view.emb (ix2 k q)) = V c main_arg8 (ix2 k q)
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- The bias block is the whole bias row. -/
theorem read_b (c : Dev nD) (t : Fin cfg3.N) (q : Fin 64) :
    iblk3 V c 2 t (ix2 (0 : Fin 1) q) = V c main_v76 (ix2 (0 : Fin 1) q) := by
  obtain ⟨-, -, -, -, e4, e5, -⟩ := idx_facts t
  show V c main_v76 (((cfg3.win 2).blk t).view.emb (ix2 (0 : Fin 1) q)) = V c main_v76 (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- Row p of point t's output block is row 5000·(t's block) + p of the output table. -/
theorem emb_out (t : Fin cfg3.N) (p : Fin 5000) (q : Fin 64) (r : Fin 100000)
    (hr : r.val = win3_3.index t (0 : Fin 2) * 5000 + p.val) :
    ((cfg3.win 3).blk t).view.emb (ix2 p q) = ix2 r q := by
  obtain ⟨-, -, -, -, -, -, e6, -⟩ := idx_facts t
  refine funext fun a => Fin.ext ?_
  match a with
  | ⟨0, _⟩ => show win3_3.index t (0 : Fin 2) * 5000 + 1 * p.val = r.val; omega
  | ⟨1, _⟩ => show win3_3.index t (1 : Fin 2) * 64 + 1 * q.val = q.val; omega

/-- WHAT POINT t WRITES BACK is block t of the clamped dense layer of the arrays as the layer finds them. -/
theorem flushed_eq (c : Dev nD) (t : Fin cfg3.N) :
    (dat3 V c).flushed 3 t = ((cfg3.win 3).blk t).view.read (Elt Ideal)
      (Spec.relu (Spec.affine (V c main_v75) (V c main_arg8) (V c main_v76))) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  have h19 : win3_3.index t (0 : Fin 2) ≤ 19 := (idx_facts t).2.2.2.2.2.2.2
  funext j
  obtain ⟨p, q, rfl⟩ : ∃ (p : Fin 5000) (q : Fin 64), j = ix2 p q := ⟨j 0, j 1, eq_ix2 j⟩
  have hp : p.val < 5000 := p.isLt
  let r : Fin 100000 := ⟨win3_3.index t (0 : Fin 2) * 5000 + p.val, by omega⟩
  refine (Body.pay3_at (iblk3 V c 0 t) (iblk3 V c 1 t) (iblk3 V c 2 t) p q).trans ?_
  show _ = Spec.relu (Spec.affine (V c main_v75) (V c main_arg8) (V c main_v76)) (((cfg3.win 3).blk t).view.emb (ix2 p q))
  rw [emb_out t p q r rfl]
  show _ = max (Spec.affine (V c main_v75) (V c main_arg8) (V c main_v76) (ix2 r q)) _
  rw [Spec.affine_apply, read_b V c t q]
  refine congrArg (max · _) (congrArg (· + _) (Finset.sum_congr rfl fun k _ => ?_))
  rw [read_x V c t p k r rfl, read_w V c t k q]

/-- An index of the table is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v77).slice (win3_3.rect t)).set ↔ _
  rw [View.set_slice_whole, Rect.mem_set_unit]
  exact Iff.rfl

/-- Every entry of the table is in some point's block: row r is in block r / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 5000, by omega⟩
  have q0 : win3_3.index t (0 : Fin 2) = (i 0).val / 5000 := ht
  have q1 : win3_3.index t (1 : Fin 2) = 0 := (idx_facts t).2.2.2.2.2.2.1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE OUTPUT TABLE after the layer: the clamped dense layer of the input table, the weights and the bias row as entered. -/
theorem arr_eq (c : Dev nD) :
    (dat3 V c).arrAt 3 cfg3.N = Spec.relu (Spec.affine (V c main_v75) (V c main_arg8) (V c main_v76)) :=
  (dat3 V c).arrAt_eq_of_cover 3 _ (fun t _ => flushed_eq V c t) cover

end Cert.KernelIdeal.Region3

end
-- ==== Proof.FoldStage3.lean ====
/-
  Hidden layer 3, from the table `H` the previous step left to the table this layer leaves.

  The host stretch before the layer applies the message-passing stage `Chain.prep` to `H`, the edge arrays and
  the two norm vectors, and reshapes the layer's bias to a row — read once for ANY contents `V` of the buffers
  before the stretch, then taken at the previous boundary, where the arguments hold their launch contents; the
  layer then writes the clamped dense layer of that table.
-/
import proofs.«179798_j45311904973178_1_alg».proof.Proof.Gen.KernelIdeal.Frame
import proofs.«179798_j45311904973178_1_alg».proof.Proof.FoldBase
import proofs.«179798_j45311904973178_1_alg».proof.Proof.Region3
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

section Reads
variable (V : Valuation τ sig (Elt Ideal))

set_option maxHeartbeats 4000000 in
/-- The stretch's message-passing result, as `Chain.prep` of what the buffers hold before it. -/
theorem agg3_read : StableHlo.after hostOps3 V (Proc.devRef .tc main_v75)
    = Chain.prep (V (Proc.devRef .tc main_v56) : Chain.Tab) (V (Proc.devRef .tc main_arg1) : Chain.EdgeIdx) (V (Proc.devRef .tc main_arg2) : Chain.EdgeIdx)
        (V (Proc.devRef .tc main_arg3) : Chain.EdgeVec) (V (Proc.devRef .tc main_v10) : Chain.NodeVec) (V (Proc.devRef .tc main_v12) : Chain.NodeVec) := by
  after_results_simp <;> rfl

set_option maxHeartbeats 4000000 in
/-- The layer's bias, reshaped to a row by the stretch. -/
theorem row3_read : StableHlo.after hostOps3 V (Proc.devRef .tc main_v76) = Chain.rowOf64 (V (Proc.devRef .tc main_arg9) : Chain.Vec64) := by
  after_results_simp <;> rfl

end Reads

theorem agg3 (H : Chain.Tab) (hH : Gen.W10 m ρ c (Proc.devRef .tc main_v56) = H) :
    Gen.W11 m ρ c (Proc.devRef .tc main_v75) = Chain.prep H (SRC m c) (DST m c) (EW m c) (Chain.nrm (SRC m c)) (Chain.nrm (DST m c)) := by
  refine (agg3_read (Gen.W10 m ρ c)).trans ?_
  rw [hH, arg10 m ρ c main_arg1 (by simp [args]), arg10 m ρ c main_arg2 (by simp [args]), arg10 m ρ c main_arg3 (by simp [args]),
    ns10 m ρ c, nd10 m ρ c]

theorem row3 : Gen.W11 m ρ c (Proc.devRef .tc main_v76) = Chain.rowOf64 (B3 m c) := by
  refine (row3_read (Gen.W10 m ρ c)).trans ?_
  rw [arg10 m ρ c main_arg9 (by simp [args])]

/-- What the layer leaves: the clamped dense layer of the message-passing result. -/
theorem stage3 (H : Chain.Tab) (hH : Gen.W10 m ρ c (Proc.devRef .tc main_v56) = H) :
    Gen.W12 m ρ c (Proc.devRef .tc main_v77) = Spec.relu (Chain.layer H (SRC m c) (DST m c) (EW m c) (Wt3 m c) (Chain.rowOf64 (B3 m c))) := by
  refine (W12_arr m ρ c 3).trans ((Region3.arr_eq (V11 m ρ) c).trans ?_)
  show Spec.relu (Spec.affine (Gen.W11 m ρ c (Proc.devRef .tc main_v75)) (Gen.W11 m ρ c (Proc.devRef .tc main_arg8)) (Gen.W11 m ρ c (Proc.devRef .tc main_v76))) = _
  rw [agg3 m ρ c H hH, row3 m ρ c, arg11 m ρ c main_arg8 (by simp [args])]
  rfl

end Cert.KernelIdeal.Fold

end
-- ==== Proof.Region4.lean ====
/-
  What the fourth hidden layer (not clamped) leaves in its output table, for ANY contents
  `V` of the buffers when the layer is entered.

  The table has 100000 rows, cut into 20 blocks of 5000 rows; grid point t handles block t: it reads rows
  5000·t … 5000·t + 4999 of the input table, the whole weight matrix and the whole bias row, and writes rows
  5000·t … 5000·t + 4999 of the output. So entry (r, c) of the output is written by point r / 5000 and holds
  `(∑ k, x (r, k) · w (k, c)) + b (0, c)`: the output is `Spec.affine` of the three input arrays.
-/
import proofs.«179798_j45311904973178_1_alg».proof.Proof.Gen.KernelIdeal.Frame
import proofs.«179798_j45311904973178_1_alg».proof.Proof.Payload
import proofs.«179798_j45311904973178_1_alg».proof.Proof.DenseSpec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: the input rows move with the output rows, every other block
    index is 0, and the output's row-block index is below 20. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every one of the 20 row blocks is some point's. -/
theorem idx_onto : ∀ q0 : Fin 20, ∃ t : Fin cfg4.N, win4_3.index t (0 : Fin 2) = q0.val :=
  (by decide +kernel : ∀ q0 : Fin 20, ∃ t : Fin grid4.N, win4_3.index t (0 : Fin 2) = q0.val)

/-- Row p of point t's input block is row 5000·(t's block) + p of the input table. -/
theorem read_x (c : Dev nD) (t : Fin cfg4.N) (p : Fin 5000) (k : Fin 64) (r : Fin 100000)
    (hr : r.val = win4_3.index t (0 : Fin 2) * 5000 + p.val) :
    iblk4 V c 0 t (ix2 p k) = V c main_v96 (ix2 r k) := by
  obtain ⟨e0, e1, -⟩ := idx_facts t
  show V c main_v96 (((cfg4.win 0).blk t).view.emb (ix2 p k)) = V c main_v96 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The weight block is the whole weight matrix. -/
theorem read_w (c : Dev nD) (t : Fin cfg4.N) (k q : Fin 64) :
    iblk4 V c 1 t (ix2 k q) = V c main_arg10 (ix2 k q) := by
  obtain ⟨-, -, e2, e3, -⟩ := idx_facts t
  show V c main_arg10 (((cfg4.win 1).blk t).view.emb (ix2 k q)) = V c main_arg10 (ix2 k q)
  refine congrArg _ (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-- The bias block is the whole bias row. -/
theorem read_b (c : Dev nD) (t : Fin cfg4.N) (q : Fin 64) :
    iblk4 V c 2 t (ix2 (0 : Fin 1) q) = V c main_v97 (ix2 (0 : Fin 1) q) := by
  obtain ⟨-, -, -, -, e4, e5, -⟩ := idx_facts t
  show V c main_v97 (((cfg4.win 2).blk t).view.emb (ix2 (0 : Fin 1) q)) = V c main_v97 (ix2 (0 : Fin 1) q)
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * q.val = q.val; omega

/-- Row p of point t's output block is row 5000·(t's block) + p of the output table. -/
theorem emb_out (t : Fin cfg4.N) (p : Fin 5000) (q : Fin 64) (r : Fin 100000)
    (hr : r.val = win4_3.index t (0 : Fin 2) * 5000 + p.val) :
    ((cfg4.win 3).blk t).view.emb (ix2 p q) = ix2 r q := by
  obtain ⟨-, -, -, -, -, -, e6, -⟩ := idx_facts t
  refine funext fun a => Fin.ext ?_
  match a with
  | ⟨0, _⟩ => show win4_3.index t (0 : Fin 2) * 5000 + 1 * p.val = r.val; omega
  | ⟨1, _⟩ => show win4_3.index t (1 : Fin 2) * 64 + 1 * q.val = q.val; omega

/-- WHAT POINT t WRITES BACK is block t of the dense layer of the arrays as the layer finds them. -/
theorem flushed_eq (c : Dev nD) (t : Fin cfg4.N) :
    (dat4 V c).flushed 3 t = ((cfg4.win 3).blk t).view.read (Elt Ideal)
      (Spec.affine (V c main_v96) (V c main_arg10) (V c main_v97)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz, View.ld_unit_zero (S := S1x64) hz]
  have h19 : win4_3.index t (0 : Fin 2) ≤ 19 := (idx_facts t).2.2.2.2.2.2.2
  funext j
  obtain ⟨p, q, rfl⟩ : ∃ (p : Fin 5000) (q : Fin 64), j = ix2 p q := ⟨j 0, j 1, eq_ix2 j⟩
  have hp : p.val < 5000 := p.isLt
  let r : Fin 100000 := ⟨win4_3.index t (0 : Fin 2) * 5000 + p.val, by omega⟩
  refine (Body.pay4_at (iblk4 V c 0 t) (iblk4 V c 1 t) (iblk4 V c 2 t) p q).trans ?_
  show _ = Spec.affine (V c main_v96) (V c main_arg10) (V c main_v97) (((cfg4.win 3).blk t).view.emb (ix2 p q))
  rw [emb_out t p q r rfl, Spec.affine_apply, read_b V c t q]
  refine congrArg (· + _) (Finset.sum_congr rfl fun k _ => ?_)
  rw [read_x V c t p k r rfl, read_w V c t k q]

/-- An index of the table is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v98).slice (win4_3.rect t)).set ↔ _
  rw [View.set_slice_whole, Rect.mem_set_unit]
  exact Iff.rfl

/-- Every entry of the table is in some point's block: row r is in block r / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := idx_onto ⟨(i 0).val / 5000, by omega⟩
  have q0 : win4_3.index t (0 : Fin 2) = (i 0).val / 5000 := ht
  have q1 : win4_3.index t (1 : Fin 2) = 0 := (idx_facts t).2.2.2.2.2.2.1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE OUTPUT TABLE after the layer: the dense layer of the input table, the weights and the bias row as entered. -/
theorem arr_eq (c : Dev nD) :
    (dat4 V c).arrAt 3 cfg4.N = Spec.affine (V c main_v96) (V c main_arg10) (V c main_v97) :=
  (dat4 V c).arrAt_eq_of_cover 3 _ (fun t _ => flushed_eq V c t) cover

end Cert.KernelIdeal.Region4

end
-- ==== Proof.FoldStage4.lean ====
/-
  Hidden layer 4, from the table `H` the previous step left to the table this layer leaves.

  The host stretch before the layer applies the message-passing stage `Chain.prep` to `H`, the edge arrays and
  the two norm vectors, and reshapes the layer's bias to a row — read once for ANY contents `V` of the buffers
  before the stretch, then taken at the previous boundary, where the arguments hold their launch contents; the
  layer then writes the dense layer of that table.
-/
import proofs.«179798_j45311904973178_1_alg».proof.Proof.Gen.KernelIdeal.Frame
import proofs.«179798_j45311904973178_1_alg».proof.Proof.FoldBase
import proofs.«179798_j45311904973178_1_alg».proof.Proof.Region4
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

section Reads
variable (V : Valuation τ sig (Elt Ideal))

set_option maxHeartbeats 4000000 in
/-- The stretch's message-passing result, as `Chain.prep` of what the buffers hold before it. -/
theorem agg4_read : StableHlo.after hostOps4 V (Proc.devRef .tc main_v96)
    = Chain.prep (V (Proc.devRef .tc main_v77) : Chain.Tab) (V (Proc.devRef .tc main_arg1) : Chain.EdgeIdx) (V (Proc.devRef .tc main_arg2) : Chain.EdgeIdx)
        (V (Proc.devRef .tc main_arg3) : Chain.EdgeVec) (V (Proc.devRef .tc main_v10) : Chain.NodeVec) (V (Proc.devRef .tc main_v12) : Chain.NodeVec) := by
  after_results_simp <;> rfl

set_option maxHeartbeats 4000000 in
/-- The layer's bias, reshaped to a row by the stretch. -/
theorem row4_read : StableHlo.after hostOps4 V (Proc.devRef .tc main_v97) = Chain.rowOf64 (V (Proc.devRef .tc main_arg11) : Chain.Vec64) := by
  after_results_simp <;> rfl

end Reads

theorem agg4 (H : Chain.Tab) (hH : Gen.W12 m ρ c (Proc.devRef .tc main_v77) = H) :
    Gen.W13 m ρ c (Proc.devRef .tc main_v96) = Chain.prep H (SRC m c) (DST m c) (EW m c) (Chain.nrm (SRC m c)) (Chain.nrm (DST m c)) := by
  refine (agg4_read (Gen.W12 m ρ c)).trans ?_
  rw [hH, arg12 m ρ c main_arg1 (by simp [args]), arg12 m ρ c main_arg2 (by simp [args]), arg12 m ρ c main_arg3 (by simp [args]),
    ns12 m ρ c, nd12 m ρ c]

theorem row4 : Gen.W13 m ρ c (Proc.devRef .tc main_v97) = Chain.rowOf64 (B4 m c) := by
  refine (row4_read (Gen.W12 m ρ c)).trans ?_
  rw [arg12 m ρ c main_arg11 (by simp [args])]

/-- What the layer leaves: the dense layer of the message-passing result. -/
theorem stage4 (H : Chain.Tab) (hH : Gen.W12 m ρ c (Proc.devRef .tc main_v77) = H) :
    Gen.W14 m ρ c (Proc.devRef .tc main_v98) = Chain.layer H (SRC m c) (DST m c) (EW m c) (Wt4 m c) (Chain.rowOf64 (B4 m c)) := by
  refine (W14_arr m ρ c 3).trans ((Region4.arr_eq (V13 m ρ) c).trans ?_)
  show Spec.affine (Gen.W13 m ρ c (Proc.devRef .tc main_v96)) (Gen.W13 m ρ c (Proc.devRef .tc main_arg10)) (Gen.W13 m ρ c (Proc.devRef .tc main_v97)) = _
  rw [agg4 m ρ c H hH, row4 m ρ c, arg13 m ρ c main_arg10 (by simp [args])]
  rfl

end Cert.KernelIdeal.Fold

end
-- ==== Proof.FoldFinal.lean ====
/-
  The result table: the last layer applied to the fourth hidden table and the residual table, and with it the
  whole fold — the kernel's result is `Chain.net` of the sixteen argument arrays.
-/
import proofs.«179798_j45311904973178_1_alg».proof.Proof.Gen.KernelIdeal.Frame
import proofs.«179798_j45311904973178_1_alg».proof.Proof.FoldBase
import proofs.«179798_j45311904973178_1_alg».proof.Proof.Region5
import proofs.«179798_j45311904973178_1_alg».proof.Proof.FoldRes
import proofs.«179798_j45311904973178_1_alg».proof.Proof.FoldStage1
import proofs.«179798_j45311904973178_1_alg».proof.Proof.FoldStage2
import proofs.«179798_j45311904973178_1_alg».proof.Proof.FoldStage3
import proofs.«179798_j45311904973178_1_alg».proof.Proof.FoldStage4
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- The last host stretch (one reshape) does not write the fourth hidden table. -/
theorem hid15 : Gen.W15 m ρ c (Proc.devRef .tc main_v98) = Gen.W14 m ρ c (Proc.devRef .tc main_v98) := by host_keep

/-- The last stretch reshapes the last layer's bias to a row, whatever the buffers hold before it. -/
theorem rowO_read (V : Valuation τ sig (Elt Ideal)) :
    StableHlo.after hostOps5 V (Proc.devRef .tc main_v99) = Chain.rowOf32 (V (Proc.devRef .tc main_arg15) : Chain.Vec32) := by
  after_results <;> rfl

theorem rowO : Gen.W15 m ρ c (Proc.devRef .tc main_v99) = Chain.rowOf32 (BO m c) := by
  refine (rowO_read (Gen.W14 m ρ c)).trans ?_
  rw [arg14 m ρ c main_arg15 (by simp [args])]

/-- The result table from the fourth hidden table `H`. -/
theorem result (H : Chain.Tab) (hH : Gen.W14 m ρ c (Proc.devRef .tc main_v98) = H) :
    Gen.W16 m ρ c (Proc.devRef .tc main_v100) = Spec.affineOfSum H (Spec.affine (X m c) (WR m c) (Chain.rowOf64 (BR m c))) (WO m c) (Chain.rowOf32 (BO m c)) := by
  refine (W16_arr m ρ c 4).trans ((Region5.arr_eq (V15 m ρ) c).trans ?_)
  show Spec.affineOfSum (Gen.W15 m ρ c (Proc.devRef .tc main_v98)) (Gen.W15 m ρ c (Proc.devRef .tc main_v14)) (Gen.W15 m ρ c (Proc.devRef .tc main_arg14)) (Gen.W15 m ρ c (Proc.devRef .tc main_v99)) = _
  rw [hid15 m ρ c, hH, res15 m ρ c, arg15 m ρ c main_arg14 (by simp [args]), rowO m ρ c]

/-- THE KERNEL'S RESULT: the network of the argument arrays, each bias as its row. -/
theorem value : Gen.W16 m ρ c (Proc.devRef .tc main_v100)
    = Chain.net (X m c) (SRC m c) (DST m c) (EW m c) (Wt1 m c) (Chain.rowOf64 (B1 m c)) (Wt2 m c) (Chain.rowOf64 (B2 m c))
        (Wt3 m c) (Chain.rowOf64 (B3 m c)) (Wt4 m c) (Chain.rowOf64 (B4 m c)) (WR m c) (Chain.rowOf64 (BR m c)) (WO m c) (Chain.rowOf32 (BO m c)) :=
  result m ρ c _ (stage4 m ρ c _ (stage3 m ρ c _ (stage2 m ρ c _ (stage1 m ρ c _ (arg6 m ρ c main_arg0 (by simp [args]))))))

end Cert.KernelIdeal.Fold

end
-- ==== Proof.RefValue.lean ====
/-
  The reference's result is the same network.

  The reference computes each dense layer on the host as a `dot_general` plus the bias broadcast over the rows, and
  each clamp as a maximum with a table of zeros. At the extended reals the `dot_general`'s entry (r, c) is the sum
  over k of x (r, k) · w (k, c), so layer by layer the reference's term is `Spec.affine` / `Spec.relu` of the same
  arrays; the message-passing stages between the layers are the same host operations as the kernel's, applied to
  equal arrays, and are carried unopened.
-/
import proofs.«179798_j45311904973178_1_alg».proof.Proof.Gen.ReferenceIdeal.Read
import proofs.«179798_j45311904973178_1_alg».proof.Proof.Chain
import proofs.«179798_j45311904973178_1_alg».proof.Proof.DenseSpec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

local notation "R64" => dot_S100000x64_S64x64_S100000x64_1_0_0_1_n_n
local notation "R32" => dot_S100000x64_S64x32_S100000x32_1_0_0_1_n_n

/-- A bias row broadcast over the 100000 rows, read at an entry. -/
theorem biasRows64_at (r : FVec Ideal S1x64 .f32) (a : Fin 100000) (j : Fin 64) :
    broadcastInDim S100000x64 ![0, 1] bcast_S1x64_S100000x64_0_1 r (ix2 a j) = r (ix2 (0 : Fin 1) j) :=
  broadcastInDim_apply _ bcast_S1x64_S100000x64_0_1 r (ix2 a j) (ix2 (0 : Fin 1) j) (fun d => match d with
    | ⟨0, _⟩ => by show (0 : Nat) = if (1 : Nat) = 1 then 0 else a.val; rw [if_pos rfl]
    | ⟨1, _⟩ => by show j.val = if (64 : Nat) = 1 then 0 else j.val; rw [if_neg (by decide)])

theorem biasRows32_at (r : FVec Ideal S1x32 .f32) (a : Fin 100000) (j : Fin 32) :
    broadcastInDim S100000x32 ![0, 1] bcast_S1x32_S100000x32_0_1 r (ix2 a j) = r (ix2 (0 : Fin 1) j) :=
  broadcastInDim_apply _ bcast_S1x32_S100000x32_0_1 r (ix2 a j) (ix2 (0 : Fin 1) j) (fun d => match d with
    | ⟨0, _⟩ => by show (0 : Nat) = if (1 : Nat) = 1 then 0 else a.val; rw [if_pos rfl]
    | ⟨1, _⟩ => by show j.val = if (32 : Nat) = 1 then 0 else j.val; rw [if_neg (by decide)])

/-- A host dense layer with 64 outputs: `dot_general` plus the broadcast bias row is `Spec.affine`. -/
theorem dense64 (x : FVec Ideal S100000x64 .f32) (w : FVec Ideal S64x64 .f32) (r : FVec Ideal S1x64 .f32) :
    addf (Host.dotGeneral R64 none x w) (broadcastInDim S100000x64 ![0, 1] bcast_S1x64_S100000x64_0_1 r) = Cert.Spec.affine x w r := by
  funext i
  obtain ⟨a, j, rfl⟩ : ∃ (a : Fin 100000) (j : Fin 64), i = ix2 a j := ⟨i 0, i 1, eq_ix2 i⟩
  rw [Cert.Spec.affine_apply]
  show Host.dotGeneral R64 none x w (ix2 a j) + broadcastInDim S100000x64 ![0, 1] bcast_S1x64_S100000x64_0_1 r (ix2 a j) = _
  have h1 := Read.val_main_v13_apply x w (ix2 a j)
  unfold Read.val_main_v13 at h1
  rw [h1, biasRows64_at r a j]
  refine congrArg (· + _) (Finset.sum_congr rfl fun k _ => ?_)
  have el : Read.lidx_main_v13 (ix2 a j) k = ix2 a k := funext fun d => Fin.ext (by match d with | ⟨0, _⟩ => rfl | ⟨1, _⟩ => rfl)
  have er : Read.ridx_main_v13 (ix2 a j) k = ix2 k j := funext fun d => Fin.ext (by match d with | ⟨0, _⟩ => rfl | ⟨1, _⟩ => rfl)
  rw [el, er]

/-- The 64 × 32 `dot_general` of ANY table with the last weights, at an entry: the sum over k. -/
theorem dot32_at (x : FVec Ideal S100000x64 .f32) (w : FVec Ideal S64x32 .f32) (i : S100000x32.Idx) :
    Host.dotGeneral R32 none x w i = ∑ k : Fin 64, x (Read.lidx_main_v114 i k) * w (Read.ridx_main_v114 i k) := by
  simp only [Host.dotGeneral]
  rw [Ideal.dotGeneral_apply, ← Equiv.sum_comp (ValueIdx.contrEquiv1 R32 64 rfl rfl).symm]
  refine Finset.sum_congr rfl fun k _ => ?_
  have hk := ValueIdx.contrEquiv1_symm_val R32 64 rfl rfl k
  have el : (R32).lhsIdx i ((ValueIdx.contrEquiv1 R32 64 rfl rfl).symm k) = Read.lidx_main_v114 i k := funext fun a => Fin.ext (by
    match a with
    | ⟨0, _⟩ => exact Read.lhs_main_v114_0 _ _
    | ⟨1, _⟩ => exact (Read.lhs_main_v114_1 _ _).trans hk)
  have er : (R32).rhsIdx i ((ValueIdx.contrEquiv1 R32 64 rfl rfl).symm k) = Read.ridx_main_v114 i k := funext fun a => Fin.ext (by
    match a with
    | ⟨0, _⟩ => exact (Read.rhs_main_v114_0 _ _).trans hk
    | ⟨1, _⟩ => exact Read.rhs_main_v114_1 _ _)
  rw [el, er]

/-- The last host dense layer (32 outputs). -/
theorem dense32 (x : FVec Ideal S100000x64 .f32) (w : FVec Ideal S64x32 .f32) (r : FVec Ideal S1x32 .f32) :
    addf (Host.dotGeneral R32 none x w) (broadcastInDim S100000x32 ![0, 1] bcast_S1x32_S100000x32_0_1 r) = Cert.Spec.affine x w r := by
  funext i
  obtain ⟨a, j, rfl⟩ : ∃ (a : Fin 100000) (j : Fin 32), i = ix2 a j := ⟨i 0, i 1, eq_ix2 i⟩
  rw [Cert.Spec.affine_apply]
  show Host.dotGeneral R32 none x w (ix2 a j) + broadcastInDim S100000x32 ![0, 1] bcast_S1x32_S100000x32_0_1 r (ix2 a j) = _
  rw [dot32_at x w (ix2 a j), biasRows32_at r a j]
  refine congrArg (· + _) (Finset.sum_congr rfl fun k _ => ?_)
  have el : Read.lidx_main_v114 (ix2 a j) k = ix2 a k := funext fun d => Fin.ext (by match d with | ⟨0, _⟩ => rfl | ⟨1, _⟩ => rfl)
  have er : Read.ridx_main_v114 (ix2 a j) k = ix2 k j := funext fun d => Fin.ext (by match d with | ⟨0, _⟩ => rfl | ⟨1, _⟩ => rfl)
  rw [el, er]

/-- The host's clamp: a maximum with the table of zeros is `Spec.relu`. -/
theorem relu64 (y : FVec Ideal S100000x64 .f32) :
    maximumf y (broadcastInDim S100000x64 ![] bcast_S_S100000x64 (constant (F := Ideal) S_ .f32 0x00000000#32)) = Cert.Spec.relu y := by
  funext i
  show max (y i) (broadcastInDim S100000x64 ![] bcast_S_S100000x64 (constant (F := Ideal) S_ .f32 0x00000000#32) i) = max (y i) _
  rw [broadcastInDim_apply _ bcast_S_S100000x64 (constant (F := Ideal) S_ .f32 0x00000000#32) i ix0 (fun a => a.elim0)]
  rfl

/-- A bias vector as a row, the reference's way (a broadcast along a new leading axis), is the kernel's way (a cast). -/
theorem row64_eq (b : FVec Ideal S64 .f32) :
    broadcastInDim S1x64 ![1] bcast_S64_S1x64_1 b = Cert.KernelIdeal.Chain.rowOf64 b := by
  funext i
  obtain ⟨z, j, rfl⟩ : ∃ (z : Fin 1) (j : Fin 64), i = ix2 z j := ⟨i 0, i 1, eq_ix2 i⟩
  have hz : z.val = 0 := by omega
  refine (broadcastInDim_apply _ bcast_S64_S1x64_1 b (ix2 z j) (ix1 j) (fun d => match d with
    | ⟨0, _⟩ => by show j.val = if (64 : Nat) = 1 then 0 else j.val; rw [if_neg (by decide)])).trans ?_
  unfold Cert.KernelIdeal.Chain.rowOf64
  refine (shapeCast_apply b _ (ix2 z j) (ix1 j) ?_).symm
  rw [Shape.rowMajor_val_one, Shape.rowMajor_val_two]
  show j.val = z.val * 64 + j.val
  omega

theorem row32_eq (b : FVec Ideal S32 .f32) :
    broadcastInDim S1x32 ![1] bcast_S32_S1x32_1 b = Cert.KernelIdeal.Chain.rowOf32 b := by
  funext i
  obtain ⟨z, j, rfl⟩ : ∃ (z : Fin 1) (j : Fin 32), i = ix2 z j := ⟨i 0, i 1, eq_ix2 i⟩
  have hz : z.val = 0 := by omega
  refine (broadcastInDim_apply _ bcast_S32_S1x32_1 b (ix2 z j) (ix1 j) (fun d => match d with
    | ⟨0, _⟩ => by show j.val = if (32 : Nat) = 1 then 0 else j.val; rw [if_neg (by decide)])).trans ?_
  unfold Cert.KernelIdeal.Chain.rowOf32
  refine (shapeCast_apply b _ (ix2 z j) (ix1 j) ?_).symm
  rw [Shape.rowMajor_val_one, Shape.rowMajor_val_two]
  show j.val = z.val * 32 + j.val
  omega

/-- The two norm vectors are `Chain.nrm` of the endpoint arrays: the same host operations. -/
theorem nrm_src (x1 : (⟨S1600000, .i32⟩ : BufTy).Contents (Elt Ideal)) : Read.val_main_v10 (F := Ideal) x1 = Cert.KernelIdeal.Chain.nrm x1 := rfl
theorem nrm_dst (x2 : (⟨S1600000, .i32⟩ : BufTy).Contents (Elt Ideal)) : Read.val_main_v12 (F := Ideal) x2 = Cert.KernelIdeal.Chain.nrm x2 := rfl

/-- The residual branch. -/
theorem resid (x0 : (⟨S100000x64, .f32⟩ : BufTy).Contents (Elt Ideal)) (x12 : (⟨S64x64, .f32⟩ : BufTy).Contents (Elt Ideal)) (x13 : (⟨S64, .f32⟩ : BufTy).Contents (Elt Ideal)) :
    Read.val_main_v16 (F := Ideal) x0 x12 x13 = Cert.Spec.affine x0 x12 (Cert.KernelIdeal.Chain.rowOf64 x13) := by
  unfold Read.val_main_v16 Read.val_main_v15 Read.val_main_v14 Read.val_main_v13
  rw [dense64, row64_eq]

/-- Round 1's message passing is `Chain.prep` of the previous table: the same host operations, unopened. -/
theorem prep1 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) :
    Read.val_main_v35 (F := Ideal) x0 x1 x2 x3 = Cert.KernelIdeal.Chain.prep x0 x1 x2 x3 (Cert.KernelIdeal.Chain.nrm x1) (Cert.KernelIdeal.Chain.nrm x2) := rfl

/-- Hidden layer 1: the clamped dense layer of its message-passing result. -/
theorem lay1 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) :
    Read.val_main_v40 (F := Ideal) x0 x1 x2 x3 x4 x5 = Cert.Spec.relu (Cert.KernelIdeal.Chain.layer x0 x1 x2 x3 x4 (Cert.KernelIdeal.Chain.rowOf64 x5)) := by
  unfold Read.val_main_v40 Read.val_main_v39 Read.val_main_v38 Read.val_main_v37 Read.val_main_v36 Read.val_main_call2_v0 Read.val_main_call2_cst
  rw [dense64, relu64, row64_eq, prep1]
  rfl

/-- Round 2's message passing is `Chain.prep` of the previous table: the same host operations, unopened. -/
theorem prep2 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) :
    Read.val_main_v59 (F := Ideal) x0 x1 x2 x3 x4 x5 = Cert.KernelIdeal.Chain.prep (Read.val_main_v40 (F := Ideal) x0 x1 x2 x3 x4 x5) x1 x2 x3 (Cert.KernelIdeal.Chain.nrm x1) (Cert.KernelIdeal.Chain.nrm x2) := rfl

/-- Hidden layer 2: the clamped dense layer of its message-passing result. -/
theorem lay2 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    Read.val_main_v64 (F := Ideal) x0 x1 x2 x3 x4 x5 x6 x7 = Cert.Spec.relu (Cert.KernelIdeal.Chain.layer (Read.val_main_v40 (F := Ideal) x0 x1 x2 x3 x4 x5) x1 x2 x3 x6 (Cert.KernelIdeal.Chain.rowOf64 x7)) := by
  unfold Read.val_main_v64 Read.val_main_v63 Read.val_main_v62 Read.val_main_v61 Read.val_main_v60 Read.val_main_call3_v0 Read.val_main_call3_cst
  rw [dense64, relu64, row64_eq, prep2]
  rfl

/-- Round 3's message passing is `Chain.prep` of the previous table: the same host operations, unopened. -/
theorem prep3 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    Read.val_main_v83 (F := Ideal) x0 x1 x2 x3 x4 x5 x6 x7 = Cert.KernelIdeal.Chain.prep (Read.val_main_v64 (F := Ideal) x0 x1 x2 x3 x4 x5 x6 x7) x1 x2 x3 (Cert.KernelIdeal.Chain.nrm x1) (Cert.KernelIdeal.Chain.nrm x2) := rfl

/-- Hidden layer 3: the clamped dense layer of its message-passing result. -/
theorem lay3 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    Read.val_main_v88 (F := Ideal) x0 x1 x2 x3 x4 x5 x6 x7 x8 x9 = Cert.Spec.relu (Cert.KernelIdeal.Chain.layer (Read.val_main_v64 (F := Ideal) x0 x1 x2 x3 x4 x5 x6 x7) x1 x2 x3 x8 (Cert.KernelIdeal.Chain.rowOf64 x9)) := by
  unfold Read.val_main_v88 Read.val_main_v87 Read.val_main_v86 Read.val_main_v85 Read.val_main_v84 Read.val_main_call4_v0 Read.val_main_call4_cst
  rw [dense64, relu64, row64_eq, prep3]
  rfl

/-- Round 4's message passing is `Chain.prep` of the previous table: the same host operations, unopened. -/
theorem prep4 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    Read.val_main_v107 (F := Ideal) x0 x1 x2 x3 x4 x5 x6 x7 x8 x9 = Cert.KernelIdeal.Chain.prep (Read.val_main_v88 (F := Ideal) x0 x1 x2 x3 x4 x5 x6 x7 x8 x9) x1 x2 x3 (Cert.KernelIdeal.Chain.nrm x1) (Cert.KernelIdeal.Chain.nrm x2) := rfl

/-- Hidden layer 4 (not clamped): the dense layer of its message-passing result. -/
theorem lay4 (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    Read.val_main_v111 (F := Ideal) x0 x1 x2 x3 x4 x5 x6 x7 x8 x9 x10 x11 = Cert.KernelIdeal.Chain.layer (Read.val_main_v88 (F := Ideal) x0 x1 x2 x3 x4 x5 x6 x7 x8 x9) x1 x2 x3 x10 (Cert.KernelIdeal.Chain.rowOf64 x11) := by
  unfold Read.val_main_v111 Read.val_main_v110 Read.val_main_v109 Read.val_main_v108
  rw [dense64, row64_eq, prep4]
  rfl

/-- The last layer: residual added, clamped, dense layer with 32 outputs. -/
theorem fin (x0 : (⟨S100000x64, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal)) (x15 : (⟨S32, .f32⟩ : BufTy).Contents (Elt Ideal)) :
    Read.val_main_v117 (F := Ideal) x0 x1 x2 x3 x4 x5 x6 x7 x8 x9 x10 x11 x12 x13 x14 x15 = Cert.Spec.affineOfSum (Read.val_main_v111 (F := Ideal) x0 x1 x2 x3 x4 x5 x6 x7 x8 x9 x10 x11) (Read.val_main_v16 (F := Ideal) x0 x12 x13) x14 (Cert.KernelIdeal.Chain.rowOf32 x15) := by
  unfold Read.val_main_v117 Read.val_main_v116 Read.val_main_v115 Read.val_main_v114 Read.val_main_v113 Read.val_main_v112 Read.val_main_call5_v0 Read.val_main_call5_cst
  rw [dense32, relu64, row32_eq]
  rfl

/-- THE REFERENCE'S RESULT: the network of the argument arrays, each bias as its row. -/
theorem res_eq (m : (ℓ : Loc nD τ sig) → Buf (Elt Ideal) ℓ) (c : Dev nD) :
    Cert.ReferenceIdeal.Value.res_main_v117 m c
      = Cert.KernelIdeal.Chain.net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (Cert.KernelIdeal.Chain.rowOf64 (m ((c.tc : Thread nD τ).loc main_arg5))) (m ((c.tc : Thread nD τ).loc main_arg6)) (Cert.KernelIdeal.Chain.rowOf64 (m ((c.tc : Thread nD τ).loc main_arg7)))
          (m ((c.tc : Thread nD τ).loc main_arg8)) (Cert.KernelIdeal.Chain.rowOf64 (m ((c.tc : Thread nD τ).loc main_arg9))) (m ((c.tc : Thread nD τ).loc main_arg10)) (Cert.KernelIdeal.Chain.rowOf64 (m ((c.tc : Thread nD τ).loc main_arg11)))
          (m ((c.tc : Thread nD τ).loc main_arg12)) (Cert.KernelIdeal.Chain.rowOf64 (m ((c.tc : Thread nD τ).loc main_arg13))) (m ((c.tc : Thread nD τ).loc main_arg14)) (Cert.KernelIdeal.Chain.rowOf32 (m ((c.tc : Thread nD τ).loc main_arg15))) := by
  rw [Read.val_main_v117_eq, fin, resid, lay4, lay3, lay2, lay1]
  rfl

end Cert.ReferenceIdeal.RefValue

end
-- ==== Proof.lean ====
/-
  The certificate of the graph network: a Pallas program (six dense layers as TensorCore kernels, the message
  passing between them on the host) against its jnp reference, equal on the extended reals.

  Both programs compute, from a node table x, the edge endpoints src and dst, the edge weights ew and the layers'
  weights and biases: the two degree norms d(v) = (max 1 (number of edges at v)) ^ (-1/2); the residual branch
  x · Wr + br; four rounds of "scale the rows by the source norm, gather each edge's source row times its weight,
  add the edge rows into their destination rows, scale by the destination norm, apply a dense layer", the first
  three clamped at zero; then the residual is added, the sum clamped, and a last dense layer gives the result.

  The programs differ only in HOW a dense layer is evaluated: the kernel cuts the 100000 rows into 20 blocks of
  5000 and, per block, rounds the operands to bf16 (the identity on the extended reals) and multiplies into a zero
  accumulator; the reference takes one `dot_general` over the whole table. Entry by entry both are the same sum of
  64 products plus the bias — sums on the extended reals are commutative and associative, and no other law is
  needed, so the inputs' finiteness is never used. The message-passing stages are the same host operations in both
  programs and are carried as one unopened function of equal arrays.

  Kernel side: the run with its result named (`RunValue.run_named`), the value of that result as `Chain.net` of the
  arguments (`Fold.value`: each layer's table from its blocks, the unwritten buffers followed from boundary to
  boundary). Reference side: its generated run, and its term as the same `Chain.net` (`RefValue.res_eq`).
-/
import proofs.«179798_j45311904973178_1_alg».proof.Defs
import proofs.«179798_j45311904973178_1_alg».proof.Proof.Gen.Kernel
import proofs.«179798_j45311904973178_1_alg».proof.Proof.Gen.Kernel.Skeleton
import proofs.«179798_j45311904973178_1_alg».proof.Proof.Gen.Kernel.Launch
import proofs.«179798_j45311904973178_1_alg».proof.Proof.Gen.Kernel.Points
import proofs.«179798_j45311904973178_1_alg».proof.Proof.Gen.Kernel.Frame
import proofs.«179798_j45311904973178_1_alg».proof.Proof.Gen.KernelIdeal
import proofs.«179798_j45311904973178_1_alg».proof.Proof.Gen.KernelIdeal.Skeleton
import proofs.«179798_j45311904973178_1_alg».proof.Proof.Gen.KernelIdeal.Launch
import proofs.«179798_j45311904973178_1_alg».proof.Proof.Gen.KernelIdeal.Points
import proofs.«179798_j45311904973178_1_alg».proof.Proof.Gen.KernelIdeal.Frame
import proofs.«179798_j45311904973178_1_alg».proof.Proof.Gen.ReferenceIdeal
import proofs.«179798_j45311904973178_1_alg».proof.Proof.Gen.ReferenceIdeal.Run
import proofs.«179798_j45311904973178_1_alg».proof.Proof.Gen.ReferenceIdeal.Read
import proofs.«179798_j45311904973178_1_alg».proof.Proof.Gen.Pre_finite_inputs
import proofs.«179798_j45311904973178_1_alg».proof.Proof.KernelRun
import proofs.«179798_j45311904973178_1_alg».proof.Proof.FoldFinal
import proofs.«179798_j45311904973178_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- Both runs end with the result table at the network of their arguments, and the arguments agree. -/
theorem algebraic : Cert.algebraic_KernelIdeal_ReferenceIdeal := by
  intro m ρ m' ρ' _ hagree
  refine ⟨fun c => Cert.KernelIdeal.Gen.W16 m ρ c (Proc.devRef .tc Cert.KernelIdeal.main_v100), Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.RefValue.res_eq m' c, h0, h1, h2, h3, h4, h5, h6, h7, h8, h9, h10, h11, h12, h13, h14, h15]
  exact (Cert.KernelIdeal.Fold.value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
